-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S4096x2048 : Shape := ⟨2, ![4096, 2048]⟩
abbrev S4x2048x2048 : Shape := ⟨3, ![4, 2048, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn_part1 {F : FTy → Type} [FloatOps F] (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  main_v18

def fn {F : FTy → Type} [FloatOps F] (main_arg0 : FVec F S2x4096x2048 .f32) (main_arg1 : FVec F S4096x2048 .f32) (main_arg2 : FVec F S4x2048x2048 .f32) (main_arg3 : FVec F S4x2048x2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_v13 main_v16
-- ==== Kernel.lean ====
abbrev S2x4096x2048 : Shape := ⟨3, ![2, 4096, 2048]⟩
abbrev S4096x2048 : Shape := ⟨2, ![4096, 2048]⟩
abbrev S4x2048x2048 : Shape := ⟨3, ![4, 2048, 2048]⟩
abbrev S1x4096x2048 : Shape := ⟨3, ![1, 4096, 2048]⟩
abbrev S512x2048 : Shape := ⟨2, ![512, 2048]⟩
abbrev S1x256x2048 : Shape := ⟨3, ![1, 256, 2048]⟩
abbrev S512x256 : Shape := ⟨2, ![512, 256]⟩
abbrev S4x512x256 : Shape := ⟨3, ![4, 512, 256]⟩
abbrev S256x2048 : Shape := ⟨2, ![256, 2048]⟩
abbrev S1x512x256 : Shape := ⟨3, ![1, 512, 256]⟩

abbrev nBuf : Space → Nat
  | .hbm => 15
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S4096x2048, .f32⟩
  | .hbm, ⟨2, _⟩ => ⟨S4x2048x2048, .f32⟩
  | .hbm, ⟨3, _⟩ => ⟨S4x2048x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S4x2048x2048, .bf16⟩
  | .hbm, ⟨9, _⟩ => ⟨S4x2048x2048, .bf16⟩
  | .hbm, ⟨10, _⟩ => ⟨S4096x2048, .f32⟩
  | .hbm, ⟨11, _⟩ => ⟨S4096x2048, .f32⟩
  | .hbm, ⟨12, _⟩ => ⟨S1x4096x2048, .f32⟩
  | .hbm, ⟨13, _⟩ => ⟨S1x4096x2048, .f32⟩
  | .hbm, ⟨14, _⟩ => ⟨S2x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S4x512x256, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 4], ![false, false, false]⟩

def k0_off1 (i : grid0.Coords) : Fin 3 → Nat :=
  let arg2 : BitVec 32 := BitVec.ofNat 32 (i 2).val
  let v12 : Index := Scalar.indexCast arg2
  let c0_10 : Index := 0#32
  let c0_11 : Index := 0#32
  ![v12.toNat, 0, 0]
def k0_cond1 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32 : BitVec 32 := 0#32
  let v18 : BitVec 1 := Scalar.cmpi .ne v17 c0_i32
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  slices_S2x4096x2048_S1x4096x2048_0_0_0 : S2x4096x2048.Slices ![0, 0, 0] S1x4096x2048
  shapeCasts_S1x4096x2048_S4096x2048 : S1x4096x2048.ShapeCasts S4096x2048
  slices_S2x4096x2048_S1x4096x2048_1_0_0 : S2x4096x2048.Slices ![1, 0, 0] S1x4096x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  h_S1x512x256 : 0 < S1x512x256.numel
  shapeCasts_S1x512x256_S512x256 : S1x512x256.ShapeCasts S512x256
  shapeCasts_S512x256_S1x512x256 : S512x256.ShapeCasts S1x512x256
  inb_S4x512x256_S1x512x256_0_0_0 : ∀ a, (![0, 0, 0] : Fin 3 → Nat) a + S1x512x256.size a ≤ S4x512x256.size a
  inb_S4x512x256_S1x512x256_1_0_0 : ∀ a, (![1, 0, 0] : Fin 3 → Nat) a + S1x512x256.size a ≤ S4x512x256.size a
  inb_S4x512x256_S1x512x256_2_0_0 : ∀ a, (![2, 0, 0] : Fin 3 → Nat) a + S1x512x256.size a ≤ S4x512x256.size a
  inb_S4x512x256_S1x512x256_3_0_0 : ∀ a, (![3, 0, 0] : Fin 3 → Nat) a + S1x512x256.size a ≤ S4x512x256.size a
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bcast_S4096x2048_S1x4096x2048_1_2 : S4096x2048.BroadcastsInDim S1x4096x2048 (![1, 2] : Fin 2 → Fin S1x4096x2048.rank)
  concatenates_S1x4096x2048_S1x4096x2048_S2x4096x2048_d0 : Shape.Concatenates [S1x4096x2048, S1x4096x2048] S2x4096x2048 0
  dot_S512x2048_S256x2048_S512x256_1_1_0_0_n_n_wf : DotDims.WF S512x2048 S256x2048 S512x256 [1] [1] [0] [0] [] []
  hrank0 : 0 < grid0.rank
  k0_off1_inb : ∀ i : grid0.Coords, ∀ a, (k0_off1 i) a + S1x512x256.size a ≤ S4x512x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S4x2048x2048.size a
  hwx0_2 : ∀ i : grid0.Coords, EltTy.bits .bf16 = 32 ∨ (Rect.block (s := S4x2048x2048) S1x256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x2048x2048.size a
  hwx0_3 : ∀ i : grid0.Coords, EltTy.bits .bf16 = 32 ∨ (Rect.block (s := S4x2048x2048) S1x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x2048.size a
  hwx0_4 : ∀ i : grid0.Coords, EltTy.bits .f32 = 32 ∨ (Rect.block (s := S4096x2048) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x2048.size a
  hwx0_5 : ∀ i : grid0.Coords, EltTy.bits .f32 = 32 ∨ (Rect.block (s := S4096x2048) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x2048.size a
  hwx0_6 : ∀ i : grid0.Coords, EltTy.bits .f32 = 32 ∨ (Rect.block (s := S4096x2048) S512x256.size (cc0_transform_6 i) (hinb0_6 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond1 i == 1#1) | 6 => fun i => !(k0_cond1 i == 1#1) | ⟨_ + 7, h⟩ => absurd h (Nat.not_lt.2 (Nat.le_add_left _ _))

class Facts : Prop extends Facts₀ where

variable [Facts]
-- ==== ReferenceIdeal.lean ====
abbrev S2x4096x2048 : Shape := ⟨3, ![2, 4096, 2048]⟩
abbrev S4096x2048 : Shape := ⟨2, ![4096, 2048]⟩
abbrev S4x2048x2048 : Shape := ⟨3, ![4, 2048, 2048]⟩
abbrev S1x4096x2048 : Shape := ⟨3, ![1, 4096, 2048]⟩
abbrev S4x2048x4096 : Shape := ⟨3, ![4, 2048, 4096]⟩
abbrev S4x4096x2048 : Shape := ⟨3, ![4, 4096, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4096x2048, .f32⟩
  | .hbm, ⟨2, _⟩ => ⟨S4x2048x2048, .f32⟩
  | .hbm, ⟨3, _⟩ => ⟨S4x2048x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S4x2048x4096, .f32⟩
  | .hbm, ⟨9, _⟩ => ⟨S4x4096x2048, .f32⟩
  | .hbm, ⟨10, _⟩ => ⟨S4x2048x4096, .f32⟩
  | .hbm, ⟨11, _⟩ => ⟨S4x4096x2048, .f32⟩
  | .hbm, ⟨12, _⟩ => ⟨S4x4096x2048, .f32⟩
  | .hbm, ⟨13, _⟩ => ⟨S1x4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S1x4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S1x4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S1x4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x4096x2048, .f32⟩
  | .hbm, ⟨52, _⟩ => ⟨S1x4096x2048, .f32⟩
  | .hbm, ⟨53, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]

class Facts₀ : Prop where
  slices_S2x4096x2048_S1x4096x2048_0_0_0 : S2x4096x2048.Slices ![0, 0, 0] S1x4096x2048
  shapeCasts_S1x4096x2048_S4096x2048 : S1x4096x2048.ShapeCasts S4096x2048
  slices_S2x4096x2048_S1x4096x2048_1_0_0 : S2x4096x2048.Slices ![1, 0, 0] S1x4096x2048
  transposes_S4x2048x4096_S4x4096x2048_0_2_1 : S4x2048x4096.Transposes [0, 2, 1] S4x4096x2048
  slices_S4x4096x2048_S1x4096x2048_0_0_0 : S4x4096x2048.Slices ![0, 0, 0] S1x4096x2048
  bcast_S_S4096x2048 : S_.BroadcastsInDim S4096x2048 (![] : Fin 0 → Fin S4096x2048.rank)
  slices_S4x4096x2048_S1x4096x2048_1_0_0 : S4x4096x2048.Slices ![1, 0, 0] S1x4096x2048
  slices_S4x4096x2048_S1x4096x2048_2_0_0 : S4x4096x2048.Slices ![2, 0, 0] S1x4096x2048
  slices_S4x4096x2048_S1x4096x2048_3_0_0 : S4x4096x2048.Slices ![3, 0, 0] S1x4096x2048
  bcast_S4096x2048_S1x4096x2048_1_2 : S4096x2048.BroadcastsInDim S1x4096x2048 (![1, 2] : Fin 2 → Fin S1x4096x2048.rank)
  concatenates_S1x4096x2048_S1x4096x2048_S2x4096x2048_d0 : Shape.Concatenates [S1x4096x2048, S1x4096x2048] S2x4096x2048 0
  dot_S4x2048x2048_S4096x2048_S4x2048x4096_2_1_01_0_n_n_wf : DotDims.WF S4x2048x2048 S4096x2048 S4x2048x4096 [2] [1] [0, 1] [0] [] []

variable [Facts₀]

def dot_S4x2048x2048_S4096x2048_S4x2048x4096_2_1_01_0_n_n : DotDims S4x2048x2048 S4096x2048 S4x2048x4096 where
  lhsContracting := [2]
  rhsContracting := [1]
  lhsNonContracting := [0, 1]
  rhsNonContracting := [0]
  lhsBatch := []
  rhsBatch := []
  wf := dot_S4x2048x2048_S4096x2048_S4x2048x4096_2_1_01_0_n_n_wf

class Facts : Prop extends Facts₀ where

variable [Facts]
-- ==== Proof.KernelRuns.lean ====
import proofs.«118477_j7473243095127_2_alg».proof.Proof.Gen.Kernel.Launch
import proofs.«118477_j7473243095127_2_alg».proof.Proof.Gen.Kernel.Skeleton
import proofs.«118477_j7473243095127_2_alg».proof.Proof.Gen.Kernel.Points
import proofs.«118477_j7473243095127_2_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any staging memrefs, one control case at a time

The grid is (batch tile, unit tile, gate), the gate innermost. At every point the body multiplies the batch tile of the
inputs and of the previous hidden state against the gate's two weight tiles, adds the products, and stores the sum into
slice `gate` of a four-slice scratch. Only at the last gate does it also read the four slices back, apply the
activations and write the new hidden and cell tiles. So there are two control cases: a point that only fills a slice,
and a point that fills the last slice and finishes the tile. -/

/-- The point is at the last gate of its tile (the body's one branch condition). -/
abbrev lastGate (i : grid0.Coords) : Prop := k0_cond1 i = 1#1

-- (the run's proof term is large)
set_option maxHeartbeats 1000000 in
/-- A point that only FILLS a slice: on whole staging memrefs holding the input tiles, the two output buffers at any
    contents `y5`, `y6` and the scratch at any contents `xs`, the body runs to a continuation that gets everything back
    unchanged except the scratch, which holds `xs` overwritten by the pieces the run found (one: the slice). -/
noncomputable def runFill (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : ¬lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    { LS : List (View.Piece (Elt F) S4x512x256 .f32) //
      ∀ (y5 y6 : Vec F S512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10) K } := by
  refine ⟨?_, fun y5 y6 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6; obtain rfl := harg10.eq_unread hfs
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexact HS

-- (the run's proof term is large)
set_option maxHeartbeats 1000000 in
/-- A point at the LAST gate: the same, and the two output buffers (at anything before) end with the pieces the run
    found written into them (one each: the whole tile). -/
noncomputable def runLast (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    Σ' (L5 : List (View.Piece (Elt F) S512x256 .f32)) (L6 : List (View.Piece (Elt F) S512x256 .f32)), { LS : List (View.Piece (Elt F) S4x512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f L6)
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexact HS

end Cert.Kernel.Step

end
-- ==== Proof.LibSliceStore.lean ====
/-
  A buffer after ONE unit-stride store, read back through a rectangle of the same sizes.

  Write a payload w through the unit-stride rectangle at offsets off (sizes size) over any prior contents, then load
  through a unit-stride rectangle of the same sizes. If the load's offsets are the store's, the load reads w back,
  whatever the buffer held. If on some axis the two rectangles lie apart (one ends before the other begins), the load
  reads what the buffer held before the store. This is what a kernel that keeps several slices in one scratch buffer
  needs: storing slice g leaves every other slice alone and slice g holding the stored value. The offsets of the store
  may be given up to an equation (a word the kernel computes against its closed form).
-/
import Idealize.ShloMosaic.Lib.WritesUnit
import Idealize.ShloMosaic.Lib.Pipeline.FrameBody

noncomputable section

namespace Cert.Lib.SliceStore

open Idealize.ShloMosaic

variable {sig : RefSig} {κ : Kind} {sp : Space} {s : Shape} {e : EltTy} {Val : EltTy → Type}

/-- Loading through the rectangle just stored through reads the payload back. -/
theorem ld_store_same (v : View sig κ sp s e) (f : v.ty.Contents Val) {off off' size : Fin s.rank → ℕ}
    (inb : ∀ a, off a + size a ≤ s.size a) (w : (Rect.unit off size inb).shape.Idx → Val e)
    (inb' : ∀ a, off' a + size a ≤ s.size a) (heq : off = off') :
    View.ld (v.read Val (v.writes Val f [(⟨Rect.unit off size inb, w⟩ : View.Piece Val s e)])) (Rect.unit off' size inb') = w := by
  funext x
  show v.read Val (v.writes Val f [(⟨Rect.unit off size inb, w⟩ : View.Piece Val s e)]) ((Rect.unit off' size inb').emb x) = w x
  refine View.read_writes_cons_unit_of_mem v f inb w [] _ x heq fun a => ?_
  show off' a + 1 * (x a).val = off' a + (x a).val
  rw [Nat.one_mul]

/-- Loading through a rectangle that lies apart from the stored one on axis a reads the prior contents. -/
theorem ld_store_apart (v : View sig κ sp s e) (f : v.ty.Contents Val) {off off₀ off' size : Fin s.rank → ℕ}
    (inb : ∀ a, off a + size a ≤ s.size a) (w : (Rect.unit off size inb).shape.Idx → Val e)
    (inb' : ∀ a, off' a + size a ≤ s.size a) (heq : off = off₀) (a : Fin s.rank)
    (ha : off' a + size a ≤ off₀ a ∨ off₀ a + size a ≤ off' a) :
    View.ld (v.read Val (v.writes Val f [(⟨Rect.unit off size inb, w⟩ : View.Piece Val s e)])) (Rect.unit off' size inb')
      = View.ld (v.read Val f) (Rect.unit off' size inb') := by
  funext x
  show v.read Val (v.writes Val f [(⟨Rect.unit off size inb, w⟩ : View.Piece Val s e)]) ((Rect.unit off' size inb').emb x)
    = v.read Val f ((Rect.unit off' size inb').emb x)
  refine View.read_writes_cons_unit_of_not_mem v f inb w [] _ heq a ?_
  have hx : (((Rect.unit off' size inb').emb x) a).val = off' a + 1 * (x a).val := rfl
  have hlt : (x a).val < size a := (x a).isLt
  rw [hx, Nat.one_mul]
  omega

/-- A store through the whole-shape rectangle at zero offsets leaves its payload, whatever was there. -/
theorem read_store_whole (v : View sig κ sp s e) (f : v.ty.Contents Val) {off : Fin s.rank → ℕ} (h : off = fun _ => 0)
    (inb : ∀ a, off a + s.size a ≤ s.size a) (w : (Rect.unit off s.size inb).shape.Idx → Val e) :
    v.read Val (v.writes Val f [(⟨Rect.unit off s.size inb, w⟩ : View.Piece Val s e)]) = w := by
  funext y
  refine View.read_writes_cons_unit_of_mem v f inb w [] y y h fun a => ?_
  show (y a).val = 0 + (y a).val
  rw [Nat.zero_add]

end Cert.Lib.SliceStore

end
-- ==== Proof.KernelPieces.lean ====
/-
  What the body's stores leave, in closed form.

  The run of the body finds, for each buffer it stores into, the list of (rectangle, value) pieces written. Here those
  lists are named: the scratch gets ONE piece, the gate tile through the rectangle of slice `gate`; at the last gate each
  output buffer gets ONE piece, the whole tile, whose value is the hidden (resp. cell) formula over the four slices of
  the scratch as it stands AFTER the last slice was stored. Reading a slice back after the store gives the stored tile
  for the stored slice and the earlier contents for the others.
-/
import proofs.«118477_j7473243095127_2_alg».proof.Proof.KernelRuns
import proofs.«118477_j7473243095127_2_alg».proof.Proof.LibSliceStore
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four slices of the scratch -/

/-- Slice k lies inside the scratch. -/
theorem sliceRect_inb (k : Fin 4) : ∀ a, (![k.val, 0, 0] : Fin 3 → ℕ) a + S1x512x256.size a ≤ S4x512x256.size a := fun a => by
  have hk := k.isLt
  match a with
  | ⟨0, _⟩ => show k.val + 1 ≤ 4; omega
  | ⟨1, _⟩ => show 0 + 512 ≤ 512; omega
  | ⟨2, _⟩ => show 0 + 256 ≤ 256; omega

/-- Slice k of the four-slice scratch, as a rectangle: all of the last two axes at leading coordinate k. -/
abbrev sliceRect (k : Fin 4) : Rect S4x512x256 :=
  Rect.unit (s := S4x512x256) ![k.val, 0, 0] S1x512x256.size (sliceRect_inb k)

/-- Slice k of scratch contents d. -/
abbrev slice (d : Vec F S4x512x256 .f32) (k : Fin 4) : Vec F S1x512x256 .f32 := View.ld d (sliceRect k)

/-- The rectangle the body stores its gate tile through, at the grid point with coordinates i. -/
abbrev storeRect (i : grid0.Coords) : Rect S4x512x256 :=
  Rect.unit (s := S4x512x256) (k0_off1 i) S1x512x256.size (Facts₀.k0_off1_inb i)

/-- The scratch after the body's store at a point: contents xs with the tile p written through the point's slice. -/
def scratchAfter (M : Memref sig .tc .vmem S4x512x256 .f32) (hM : M.IsWhole) (i : grid0.Coords) (xs : Vec F S4x512x256 .f32)
    (p : FVec F S1x512x256 .f32) : Vec F S4x512x256 .f32 :=
  M.view.read (Elt F) (M.view.writes (Elt F) (hM.unread xs) [(⟨storeRect i, p⟩ : View.Piece (Elt F) S4x512x256 .f32)])

/-- The stored slice reads back as the stored tile. -/
theorem slice_scratchAfter_same (M : Memref sig .tc .vmem S4x512x256 .f32) (hM : M.IsWhole) (i : grid0.Coords)
    (xs : Vec F S4x512x256 .f32) (p : FVec F S1x512x256 .f32) (k : Fin 4) (hk : (i 2).val = k.val) :
    slice (scratchAfter M hM i xs p) k = p :=
  Cert.Lib.SliceStore.ld_store_same M.view (hM.unread xs) (off' := ![k.val, 0, 0]) (Facts₀.k0_off1_inb i) p (sliceRect_inb k) ((k0_off1_eq i).trans (by rw [hk]))

/-- Every other slice reads as before the store. -/
theorem slice_scratchAfter_other (M : Memref sig .tc .vmem S4x512x256 .f32) (hM : M.IsWhole) (i : grid0.Coords)
    (xs : Vec F S4x512x256 .f32) (p : FVec F S1x512x256 .f32) (k : Fin 4) (hk : (i 2).val ≠ k.val) :
    slice (scratchAfter M hM i xs p) k = slice xs k := by
  have h := Cert.Lib.SliceStore.ld_store_apart M.view (hM.unread xs) (off' := ![k.val, 0, 0]) (Facts₀.k0_off1_inb i) p (sliceRect_inb k) (k0_off1_eq i) ⟨0, by decide⟩ (by
    show k.val + 1 ≤ (i 2).val ∨ (i 2).val + 1 ≤ k.val
    omega)
  rw [hM.read_unread] at h
  exact h

/-! ## The pieces the runs found -/

theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl

/-- A point that only fills: the scratch's one piece is the gate tile of the four loaded blocks through the point's slice. -/
theorem runFill_scratch (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : ¬lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    (runFill c i arg3 harg3 arg4 harg4 arg5 harg5 arg6 harg6 arg7 harg7 arg8 harg8 arg9 harg9 arg10 harg10 hc x0 x1 x2 x3 x4 xs).1 = [(⟨storeRect i, k0_pay1 x0 x1 x2 x3⟩ : View.Piece (Elt F) S4x512x256 .f32)] := by
  unfold runFill; dsimp only; sl_unfold_words
  simp only [View.readAt_eq_ld, harg3.read_unread, harg4.read_unread, harg5.read_unread, harg6.read_unread,
    View.ld_unit_zero (S := S512x2048) zeros2, View.ld_unit_zero (S := S1x256x2048) zeros3]
  rfl

/-- At the last gate the scratch's one piece is the same. -/
theorem runLast_scratch (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    (runLast c i arg3 harg3 arg4 harg4 arg5 harg5 arg6 harg6 arg7 harg7 arg8 harg8 arg9 harg9 arg10 harg10 hc x0 x1 x2 x3 x4 xs).2.2.1 = [(⟨storeRect i, k0_pay1 x0 x1 x2 x3⟩ : View.Piece (Elt F) S4x512x256 .f32)] := by
  unfold runLast; dsimp only; sl_unfold_words
  simp only [View.readAt_eq_ld, harg3.read_unread, harg4.read_unread, harg5.read_unread, harg6.read_unread,
    View.ld_unit_zero (S := S512x2048) zeros2, View.ld_unit_zero (S := S1x256x2048) zeros3]
  rfl

/-- At the last gate the hidden output's one piece is the whole tile: the hidden formula over the four slices of the
    scratch after this point's store, and the block of the previous cell state. -/
theorem runLast_hidden (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    (runLast c i arg3 harg3 arg4 harg4 arg5 harg5 arg6 harg6 arg7 harg7 arg8 harg8 arg9 harg9 arg10 harg10 hc x0 x1 x2 x3 x4 xs).1
      = [(⟨Rect.unit (s := S512x256) ![0, 0] S512x256.size Facts₀.inb_S512x256_S512x256_0_0,
          k0_pay3 (slice (scratchAfter arg10 harg10 i xs (k0_pay1 x0 x1 x2 x3)) 0) (slice (scratchAfter arg10 harg10 i xs (k0_pay1 x0 x1 x2 x3)) 1)
            (slice (scratchAfter arg10 harg10 i xs (k0_pay1 x0 x1 x2 x3)) 2) (slice (scratchAfter arg10 harg10 i xs (k0_pay1 x0 x1 x2 x3)) 3) x4⟩ : View.Piece (Elt F) S512x256 .f32)] := by
  unfold runLast; dsimp only; sl_unfold_words
  simp only [View.readAt_eq_ld, harg3.read_unread, harg4.read_unread, harg5.read_unread, harg6.read_unread, harg7.read_unread,
    View.ld_unit_zero (S := S512x2048) zeros2, View.ld_unit_zero (S := S1x256x2048) zeros3, View.ld_unit_zero (S := S512x256) zeros2]
  rfl

/-- And the cell output's one piece: the cell formula over slices 0, 1 and 3. -/
theorem runLast_cell (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    (runLast c i arg3 harg3 arg4 harg4 arg5 harg5 arg6 harg6 arg7 harg7 arg8 harg8 arg9 harg9 arg10 harg10 hc x0 x1 x2 x3 x4 xs).2.1
      = [(⟨Rect.unit (s := S512x256) ![0, 0] S512x256.size Facts₀.inb_S512x256_S512x256_0_0,
          k0_pay2 (slice (scratchAfter arg10 harg10 i xs (k0_pay1 x0 x1 x2 x3)) 0) (slice (scratchAfter arg10 harg10 i xs (k0_pay1 x0 x1 x2 x3)) 1)
            (slice (scratchAfter arg10 harg10 i xs (k0_pay1 x0 x1 x2 x3)) 3) x4⟩ : View.Piece (Elt F) S512x256 .f32)] := by
  unfold runLast; dsimp only; sl_unfold_words
  simp only [View.readAt_eq_ld, harg3.read_unread, harg4.read_unread, harg5.read_unread, harg6.read_unread, harg7.read_unread,
    View.ld_unit_zero (S := S512x2048) zeros2, View.ld_unit_zero (S := S1x256x2048) zeros3, View.ld_unit_zero (S := S512x256) zeros2]
  rfl

end Cert.Kernel.Step

end
-- ==== Proof.KernelTiles.lean ====
/-
  The tiles one grid point computes, as pure terms over the blocks of the argument arrays.

  The grid is (batch tile, unit tile, gate) with the gate innermost, so a point's position t has gate t mod 4 and the
  four points of one (batch tile, unit tile) pair are consecutive: t - t mod 4 + k for k = 0, 1, 2, 3. The gate tile of
  a point is the body's stored value there, a function of that point's four input blocks; the hidden and cell tiles of
  a pair are the body's two output values over the four gate tiles of the pair and the pair's block of the previous
  cell state.
-/
import proofs.«118477_j7473243095127_2_alg».proof.Proof.Gen.Kernel.Skeleton
import proofs.«118477_j7473243095127_2_alg».proof.Proof.Gen.Kernel.Frame

noncomputable section

namespace Cert.Kernel.Step

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The grid has 8 * 8 * 4 points. -/
theorem points_eq : cfg0.N = 256 := N_0

/-- The point of gate k in the (batch tile, unit tile) pair that point t belongs to. -/
def tilePoint (t : Fin cfg0.N) (k : Fin 4) : Fin cfg0.N :=
  ⟨t.val - t.val % 4 + k.val, by have h := t.isLt; have hN : cfg0.N = 256 := points_eq; have hk := k.isLt; omega⟩

@[simp] theorem tilePoint_val (t : Fin cfg0.N) (k : Fin 4) : (tilePoint t k).val = t.val - t.val % 4 + k.val := rfl

/-- The gate tile point t computes: its pre-activations for 512 batch rows and 256 units, from the point's blocks of
    the inputs, the previous hidden state and the gate's two weight matrices. -/
def gateTile (c : Dev nD) (t : Fin cfg0.N) : FVec F S1x512x256 .f32 :=
  k0_pay1 (iblk m c 0 t) (iblk m c 1 t) (iblk m c 2 t) (iblk m c 3 t)

/-- The new cell-state tile of t's pair: from the pair's input, forget and candidate gate tiles and its block of the
    previous cell state. -/
def cellTile (c : Dev nD) (t : Fin cfg0.N) : FVec F S512x256 .f32 :=
  k0_pay2 (gateTile m c (tilePoint t 0)) (gateTile m c (tilePoint t 1)) (gateTile m c (tilePoint t 3)) (iblk m c 4 t)

/-- The new hidden-state tile of t's pair: from all four gate tiles and the block of the previous cell state. -/
def hiddenTile (c : Dev nD) (t : Fin cfg0.N) : FVec F S512x256 .f32 :=
  k0_pay3 (gateTile m c (tilePoint t 0)) (gateTile m c (tilePoint t 1)) (gateTile m c (tilePoint t 2))
    (gateTile m c (tilePoint t 3)) (iblk m c 4 t)

end Cert.Kernel.Step

end
-- ==== Proof.KernelBody.lean ====
/-
  The frame of the one region, with the outputs named.

  INVARIANT. Before position n of the grid the four-slice scratch holds SOME contents d of which only this is known:
  slice k of d, for each k below n mod 4, is the gate tile computed at position n - n mod 4 + k — the gates of the
  current (batch tile, unit tile) pair stored so far. Before the first position, and whenever a pair has just been
  finished (n mod 4 = 0), this says nothing. One step of the body keeps it: the point at position n stores its gate
  tile into slice n mod 4 and leaves the other slices alone.

  OUTPUTS. The two output buffers are idle (untouched, not written back) at every point but the last gate of a pair.
  There the body has all four slices of the pair — three by the invariant, the fourth just stored — and writes the
  hidden and the cell tile of the pair, which the pipeline then writes back.
-/
import proofs.«118477_j7473243095127_2_alg».proof.Proof.KernelPieces
import proofs.«118477_j7473243095127_2_alg».proof.Proof.KernelTiles
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's control and schedule facts, decided once over the 256 points -/

/-- The last-gate condition holds exactly at the positions 3 mod 4. -/
theorem lastGate_iff : ∀ t : Fin cfg0.N, lastGate (grid0.coords t) ↔ t.val % 4 = 3 :=
  (by decide +kernel : ∀ t : Fin grid0.N, lastGate (grid0.coords t) ↔ t.val % 4 = 3)
/-- The gate coordinate of position t is t mod 4. -/
theorem gateCoord : ∀ t : Fin cfg0.N, ((grid0.coords t) 2).val = t.val % 4 :=
  (by decide +kernel : ∀ t : Fin grid0.N, ((grid0.coords t) 2).val = t.val % 4)
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
/-- Away from the last gate the hidden output is idle and not written back; at it, live. -/
theorem idle_5 : ∀ t : Fin cfg0.N, ¬lastGate (grid0.coords t) → cfg0.idle 5 (grid0.coords t) = true := by decide +kernel
theorem noFlush_5 : ∀ t : Fin cfg0.N, ¬lastGate (grid0.coords t) → (cfg0.win 5).flush t = false := by decide +kernel
theorem live_5 : ∀ t : Fin cfg0.N, lastGate (grid0.coords t) → cfg0.idle 5 (grid0.coords t) = false := by decide +kernel
/-- The same for the cell output. -/
theorem idle_6 : ∀ t : Fin cfg0.N, ¬lastGate (grid0.coords t) → cfg0.idle 6 (grid0.coords t) = true := by decide +kernel
theorem noFlush_6 : ∀ t : Fin cfg0.N, ¬lastGate (grid0.coords t) → (cfg0.win 6).flush t = false := by decide +kernel
theorem live_6 : ∀ t : Fin cfg0.N, lastGate (grid0.coords t) → cfg0.idle 6 (grid0.coords t) = false := by decide +kernel

/-! ## The staging memrefs at a point, and the scratch -/

abbrev stg0 (t : Fin cfg0.N) : Memref sig .tc .vmem S512x2048 .f32 := win0_0.stage (cfg0.slots t 0)
abbrev stgW0 (t : Fin cfg0.N) : (stg0 t).IsWhole := hstage0_0 ((cfg0.slots t 0).cast nbuf0_0)
abbrev stg1 (t : Fin cfg0.N) : Memref sig .tc .vmem S512x2048 .f32 := win0_1.stage (cfg0.slots t 1)
abbrev stgW1 (t : Fin cfg0.N) : (stg1 t).IsWhole := hstage0_1 ((cfg0.slots t 1).cast nbuf0_1)
abbrev stg2 (t : Fin cfg0.N) : Memref sig .tc .vmem S1x256x2048 .bf16 := win0_2.stage (cfg0.slots t 2)
abbrev stgW2 (t : Fin cfg0.N) : (stg2 t).IsWhole := hstage0_2 ((cfg0.slots t 2).cast nbuf0_2)
abbrev stg3 (t : Fin cfg0.N) : Memref sig .tc .vmem S1x256x2048 .bf16 := win0_3.stage (cfg0.slots t 3)
abbrev stgW3 (t : Fin cfg0.N) : (stg3 t).IsWhole := hstage0_3 ((cfg0.slots t 3).cast nbuf0_3)
abbrev stg4 (t : Fin cfg0.N) : Memref sig .tc .vmem S512x256 .f32 := win0_4.stage (cfg0.slots t 4)
abbrev stgW4 (t : Fin cfg0.N) : (stg4 t).IsWhole := hstage0_4 ((cfg0.slots t 4).cast nbuf0_4)
abbrev stg5 (t : Fin cfg0.N) : Memref sig .tc .vmem S512x256 .f32 := win0_5.stage (cfg0.slots t 5)
abbrev stgW5 (t : Fin cfg0.N) : (stg5 t).IsWhole := hstage0_5 ((cfg0.slots t 5).cast nbuf0_5)
abbrev stg6 (t : Fin cfg0.N) : Memref sig .tc .vmem S512x256 .f32 := win0_6.stage (cfg0.slots t 6)
abbrev stgW6 (t : Fin cfg0.N) : (stg6 t).IsWhole := hstage0_6 ((cfg0.slots t 6).cast nbuf0_6)
/-- The four-slice scratch: a whole scoped buffer of the kernel's own. -/
abbrev scratchM : Memref sig .tc .vmem S4x512x256 .f32 := Memref.whole cc0_scratch0

/-- What the launch hands the region and takes back: the scratch at some contents and the generator register. -/
theorem launchInv_eq (c : Dev nD) :
    (Pipeline.ΦA spec0 c : sProp 𝕄)
      = iprop(iprop((∃ d, owns (c : Thread nD τ) scratchM fullShare d)) ∗ (∃ r, prngReg c r)) := by
  unfold Pipeline.ΦA; rw [scopedRest0_eq]; simp only [scratchM, owns_whole]; try rfl

/-! ## The invariant -/

/-- The slices of the current pair stored before position n hold their gate tiles. -/
def Filled (c : Dev nD) (n : ℕ) (d : Vec F S4x512x256 .f32) : Prop :=
  ∀ (k : Fin 4) (s : Fin cfg0.N), k.val < n % 4 → s.val = n - n % 4 + k.val → slice d k = gateTile m c s

theorem filled_of_mod_zero (c : Dev nD) (n : ℕ) (hn : n % 4 = 0) (d : Vec F S4x512x256 .f32) : Filled m c n d := by
  intro k s hk _; rw [hn] at hk; exact absurd hk (Nat.not_lt_zero _)

/-- One step: after the point at position t stored its gate tile into its slice, the slices stored before position
    t + 1 hold their tiles. -/
theorem filled_step (c : Dev nD) (t : Fin cfg0.N) (d : Vec F S4x512x256 .f32) (hd : Filled m c t.val d)
    (M : Memref sig .tc .vmem S4x512x256 .f32) (hM : M.IsWhole) :
    Filled m c (t.val + 1) (scratchAfter M hM (grid0.coords t) d (gateTile m c t)) := by
  intro k s hk hs
  have hg := gateCoord t
  by_cases hkt : k.val = t.val % 4
  · have hst : s = t := Fin.ext (by omega)
    rw [hst]
    exact slice_scratchAfter_same M hM _ d _ k (by rw [hg, hkt])
  · rw [slice_scratchAfter_other M hM _ d _ k (by rw [hg]; exact fun h => hkt h.symm)]
    exact hd k s (by omega) (by omega)

/-- At the last gate of a pair, after the store, all four slices hold the pair's gate tiles. -/
theorem slices_at_last (c : Dev nD) (t : Fin cfg0.N) (h3 : t.val % 4 = 3) (d : Vec F S4x512x256 .f32) (hd : Filled m c t.val d)
    (M : Memref sig .tc .vmem S4x512x256 .f32) (hM : M.IsWhole) (k : Fin 4) :
    slice (scratchAfter M hM (grid0.coords t) d (gateTile m c t)) k = gateTile m c (tilePoint t k) := by
  have hg := gateCoord t
  by_cases hk : k.val = 3
  · have hst : tilePoint t k = t := Fin.ext (by rw [tilePoint_val]; omega)
    rw [hst]
    exact slice_scratchAfter_same M hM _ d _ k (by rw [hg, h3, hk])
  · rw [slice_scratchAfter_other M hM _ d _ k (by rw [hg, h3]; exact fun h => hk h.symm)]
    exact hd k (tilePoint t k) (by have := k.isLt; omega) (by rw [tilePoint_val])

/-- The region invariant before position n. -/
def Inv (c : Dev nD) (n : ℕ) : sProp 𝕄 :=
  iprop(iprop((∃ d, ⌜Filled m c n d⌝ ∗ owns (c : Thread nD τ) scratchM fullShare d)) ∗ (∃ r, prngReg c r))

/-! ## The proof data -/

/-- The arrays as the region finds them; after the body each input's buffer at its block, the hidden and cell
    outputs at the tiles of the point's pair (consulted only at the last gate: elsewhere those windows are idle);
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenTile m c t
    | ⟨6, _⟩ => cellTile m c t
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = hiddenTile m c t := by dsimp only [dats]
theorem after_6 (c : Dev nD) (t : Fin cfg0.N) : (dats m 0 c).after 6 t = cellTile m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. The inputs' memrefs hold their blocks; the position says which control case the point is
    in; the invariant hands the body the scratch at contents whose earlier slices are known and takes it back with
    one more slice known (or, after the last gate, with nothing to know); an idle output buffer goes back as found,
    and at the last gate the output buffers end holding the pair's hidden and cell tiles. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  unfold Inv
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  by_cases h3 : t.val % 4 = 3
  · -- the last gate of a pair
    have hc : lastGate (grid0.coords t) := (lastGate_iff t).mpr h3
    rw [show (dats m 0 c).leavesExact 5 t = owns (c : Thread nD τ) (stg5 t) fullShare ((dats m 0 c).after 5 t) from by
      unfold Dat.leavesExact; rw [live_5 t hc], after_5]
    rw [show (dats m 0 c).leavesExact 6 t = owns (c : Thread nD τ) (stg6 t) fullShare ((dats m 0 c).after 6 t) from by
      unfold Dat.leavesExact; rw [live_6 t hc], after_6]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((runLast c (grid0.coords t) (stg0 t) (stgW0 t) (stg1 t) (stgW1 t) (stg2 t) (stgW2 t) (stg3 t) (stgW3 t) (stg4 t) (stgW4 t) (stg5 t) (stgW5 t) (stg6 t) (stgW6 t) scratchM (Memref.isWhole_whole _) hc (iblk m c 0 t) (iblk m c 1 t) (iblk m c 2 t) (iblk m c 3 t) (iblk m c 4 t) d).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%f5, H5⟩, ⟨%f6, H6⟩, HS⟩
    isplitl [HS Hg]
    · isplitl [HS]
      · iexists (scratchAfter scratchM (Memref.isWhole_whole _) (grid0.coords t) d (gateTile m c t))
        isplitr
        · ipureintro; exact filled_of_mod_zero m c _ (by omega) _
        · unfold owns; iexists _; isplitr
          swap; · iexact HS
          ipureintro; rw [runLast_scratch]; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      rw [runLast_hidden, Cert.Lib.SliceStore.read_store_whole _ _ zeros2]
      have e : ∀ k : Fin 4, slice (scratchAfter scratchM (Memref.isWhole_whole _) (grid0.coords t) d
          (k0_pay1 (iblk m c 0 t) (iblk m c 1 t) (iblk m c 2 t) (iblk m c 3 t))) k = gateTile m c (tilePoint t k) :=
        fun k => slices_at_last m c t h3 d hd _ _ k
      show k0_pay3 _ _ _ _ (iblk m c 4 t) = hiddenTile m c t
      unfold hiddenTile
      rw [e 0, e 1, e 2, e 3]
    · unfold owns; iexists _; isplitr
      swap; · iexact H6
      ipureintro
      rw [runLast_cell, Cert.Lib.SliceStore.read_store_whole _ _ zeros2]
      have e : ∀ k : Fin 4, slice (scratchAfter scratchM (Memref.isWhole_whole _) (grid0.coords t) d
          (k0_pay1 (iblk m c 0 t) (iblk m c 1 t) (iblk m c 2 t) (iblk m c 3 t))) k = gateTile m c (tilePoint t k) :=
        fun k => slices_at_last m c t h3 d hd _ _ k
      show k0_pay2 _ _ _ (iblk m c 4 t) = cellTile m c t
      unfold cellTile
      rw [e 0, e 1, e 3]
  · -- a point that only fills its slice
    have hc : ¬lastGate (grid0.coords t) := fun h => h3 ((lastGate_iff t).mp h)
    rw [Dat.leavesExact_idle (dats m 0 c) 5 t (idle_5 t hc) (noFlush_5 t hc)]
    rw [Dat.leavesExact_idle (dats m 0 c) 6 t (idle_6 t hc) (noFlush_6 t hc)]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((runFill c (grid0.coords t) (stg0 t) (stgW0 t) (stg1 t) (stgW1 t) (stg2 t) (stgW2 t) (stg3 t) (stgW3 t) (stg4 t) (stgW4 t) (stg5 t) (stgW5 t) (stg6 t) (stgW6 t) scratchM (Memref.isWhole_whole _) hc (iblk m c 0 t) (iblk m c 1 t) (iblk m c 2 t) (iblk m c 3 t) (iblk m c 4 t) d).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists (scratchAfter scratchM (Memref.isWhole_whole _) (grid0.coords t) d (gateTile m c t))
        isplitr
        · ipureintro; exact filled_step m c t d hd _ _
        · unfold owns; iexists _; isplitr
          swap; · iexact HS
          ipureintro; rw [runFill_scratch]; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first position (which says nothing of the slices). -/
theorem hin (c : Dev nD) : Pipeline.ΦA spec0 c ⊢ (dats m 0 c).Φ 0 := by
  rw [show (dats m 0 c).Φ 0 = Inv m c 0 from rfl, launchInv_eq]
  unfold Inv
  iintro ⟨⟨%d, HS⟩, Hg⟩
  isplitl [HS]
  · iexists d; isplitr
    · ipureintro; exact filled_of_mod_zero m c 0 rfl d
    · iexact HS
  iexact Hg

/-- After the last position the invariant gives the scratch back at some contents. -/
theorem hout (c : Dev nD) : (dats m 0 c).Φ (Fin.last cfg0.N) ⊢ Pipeline.ΦA spec0 c := by
  rw [show (dats m 0 c).Φ (Fin.last cfg0.N) = Inv m c (Fin.last cfg0.N).val from rfl, launchInv_eq]
  unfold Inv
  iintro ⟨⟨%d, %hd, HS⟩, Hg⟩
  isplitl [HS]
  · iexists d; iexact HS
  iexact Hg

/-! ## The run and the frame -/

set_option backward.isDefEq.respectTransparency.types false in
/-- Every weakly fair execution of the program terminates, and every final state has every array of the pipeline at
    what the proof data computes (the outputs: the write-backs of the pairs' tiles) and every other unscoped buffer
    as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Step

end
-- ==== Proof.KernelIdealRuns.lean ====
import proofs.«118477_j7473243095127_2_alg».proof.Proof.Gen.KernelIdeal.Launch
import proofs.«118477_j7473243095127_2_alg».proof.Proof.Gen.KernelIdeal.Skeleton
import proofs.«118477_j7473243095127_2_alg».proof.Proof.Gen.KernelIdeal.Points
import proofs.«118477_j7473243095127_2_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any staging memrefs, one control case at a time

The grid is (batch tile, unit tile, gate), the gate innermost. At every point the body multiplies the batch tile of the
inputs and of the previous hidden state against the gate's two weight tiles, adds the products, and stores the sum into
slice `gate` of a four-slice scratch. Only at the last gate does it also read the four slices back, apply the
activations and write the new hidden and cell tiles. So there are two control cases: a point that only fills a slice,
and a point that fills the last slice and finishes the tile. -/

/-- The point is at the last gate of its tile (the body's one branch condition). -/
abbrev lastGate (i : grid0.Coords) : Prop := k0_cond1 i = 1#1

-- (the run's proof term is large)
set_option maxHeartbeats 1000000 in
/-- A point that only FILLS a slice: on whole staging memrefs holding the input tiles, the two output buffers at any
    contents `y5`, `y6` and the scratch at any contents `xs`, the body runs to a continuation that gets everything back
    unchanged except the scratch, which holds `xs` overwritten by the pieces the run found (one: the slice). -/
noncomputable def runFill (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : ¬lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    { LS : List (View.Piece (Elt F) S4x512x256 .f32) //
      ∀ (y5 y6 : Vec F S512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10) K } := by
  refine ⟨?_, fun y5 y6 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6; obtain rfl := harg10.eq_unread hfs
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexact HS

-- (the run's proof term is large)
set_option maxHeartbeats 1000000 in
/-- A point at the LAST gate: the same, and the two output buffers (at anything before) end with the pieces the run
    found written into them (one each: the whole tile). -/
noncomputable def runLast (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    Σ' (L5 : List (View.Piece (Elt F) S512x256 .f32)) (L6 : List (View.Piece (Elt F) S512x256 .f32)), { LS : List (View.Piece (Elt F) S4x512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f L6)
                ∗ (arg10.view.loc (c : Thread nD τ) ↦[arg10.view.set]{fullShare} arg10.view.writes (Elt F) (harg10.unread xs) LS)) -∗ K ⟨⟩))
          ⊢ wp frame (wpE (defs₀ (F := F)) Variants.none c none) E (cc0__lstm_kernel i arg3 harg3 arg4 harg4 arg5 harg5 arg6 harg6 arg7 harg7 arg8 harg8 arg9 harg9 arg10 harg10) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexact HS

end Cert.KernelIdeal.Step

end
-- ==== Proof.KernelIdealPieces.lean ====
/-
  What the body's stores leave, in closed form.

  The run of the body finds, for each buffer it stores into, the list of (rectangle, value) pieces written. Here those
  lists are named: the scratch gets ONE piece, the gate tile through the rectangle of slice `gate`; at the last gate each
  output buffer gets ONE piece, the whole tile, whose value is the hidden (resp. cell) formula over the four slices of
  the scratch as it stands AFTER the last slice was stored. Reading a slice back after the store gives the stored tile
  for the stored slice and the earlier contents for the others.
-/
import proofs.«118477_j7473243095127_2_alg».proof.Proof.KernelIdealRuns
import proofs.«118477_j7473243095127_2_alg».proof.Proof.LibSliceStore
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four slices of the scratch -/

/-- Slice k lies inside the scratch. -/
theorem sliceRect_inb (k : Fin 4) : ∀ a, (![k.val, 0, 0] : Fin 3 → ℕ) a + S1x512x256.size a ≤ S4x512x256.size a := fun a => by
  have hk := k.isLt
  match a with
  | ⟨0, _⟩ => show k.val + 1 ≤ 4; omega
  | ⟨1, _⟩ => show 0 + 512 ≤ 512; omega
  | ⟨2, _⟩ => show 0 + 256 ≤ 256; omega

/-- Slice k of the four-slice scratch, as a rectangle: all of the last two axes at leading coordinate k. -/
abbrev sliceRect (k : Fin 4) : Rect S4x512x256 :=
  Rect.unit (s := S4x512x256) ![k.val, 0, 0] S1x512x256.size (sliceRect_inb k)

/-- Slice k of scratch contents d. -/
abbrev slice (d : Vec F S4x512x256 .f32) (k : Fin 4) : Vec F S1x512x256 .f32 := View.ld d (sliceRect k)

/-- The rectangle the body stores its gate tile through, at the grid point with coordinates i. -/
abbrev storeRect (i : grid0.Coords) : Rect S4x512x256 :=
  Rect.unit (s := S4x512x256) (k0_off1 i) S1x512x256.size (Facts₀.k0_off1_inb i)

/-- The scratch after the body's store at a point: contents xs with the tile p written through the point's slice. -/
def scratchAfter (M : Memref sig .tc .vmem S4x512x256 .f32) (hM : M.IsWhole) (i : grid0.Coords) (xs : Vec F S4x512x256 .f32)
    (p : FVec F S1x512x256 .f32) : Vec F S4x512x256 .f32 :=
  M.view.read (Elt F) (M.view.writes (Elt F) (hM.unread xs) [(⟨storeRect i, p⟩ : View.Piece (Elt F) S4x512x256 .f32)])

/-- The stored slice reads back as the stored tile. -/
theorem slice_scratchAfter_same (M : Memref sig .tc .vmem S4x512x256 .f32) (hM : M.IsWhole) (i : grid0.Coords)
    (xs : Vec F S4x512x256 .f32) (p : FVec F S1x512x256 .f32) (k : Fin 4) (hk : (i 2).val = k.val) :
    slice (scratchAfter M hM i xs p) k = p :=
  Cert.Lib.SliceStore.ld_store_same M.view (hM.unread xs) (off' := ![k.val, 0, 0]) (Facts₀.k0_off1_inb i) p (sliceRect_inb k) ((k0_off1_eq i).trans (by rw [hk]))

/-- Every other slice reads as before the store. -/
theorem slice_scratchAfter_other (M : Memref sig .tc .vmem S4x512x256 .f32) (hM : M.IsWhole) (i : grid0.Coords)
    (xs : Vec F S4x512x256 .f32) (p : FVec F S1x512x256 .f32) (k : Fin 4) (hk : (i 2).val ≠ k.val) :
    slice (scratchAfter M hM i xs p) k = slice xs k := by
  have h := Cert.Lib.SliceStore.ld_store_apart M.view (hM.unread xs) (off' := ![k.val, 0, 0]) (Facts₀.k0_off1_inb i) p (sliceRect_inb k) (k0_off1_eq i) ⟨0, by decide⟩ (by
    show k.val + 1 ≤ (i 2).val ∨ (i 2).val + 1 ≤ k.val
    omega)
  rw [hM.read_unread] at h
  exact h

/-! ## The pieces the runs found -/

theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl

/-- A point that only fills: the scratch's one piece is the gate tile of the four loaded blocks through the point's slice. -/
theorem runFill_scratch (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : ¬lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    (runFill c i arg3 harg3 arg4 harg4 arg5 harg5 arg6 harg6 arg7 harg7 arg8 harg8 arg9 harg9 arg10 harg10 hc x0 x1 x2 x3 x4 xs).1 = [(⟨storeRect i, k0_pay1 x0 x1 x2 x3⟩ : View.Piece (Elt F) S4x512x256 .f32)] := by
  unfold runFill; dsimp only; sl_unfold_words
  simp only [View.readAt_eq_ld, harg3.read_unread, harg4.read_unread, harg5.read_unread, harg6.read_unread,
    View.ld_unit_zero (S := S512x2048) zeros2, View.ld_unit_zero (S := S1x256x2048) zeros3]
  rfl

/-- At the last gate the scratch's one piece is the same. -/
theorem runLast_scratch (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    (runLast c i arg3 harg3 arg4 harg4 arg5 harg5 arg6 harg6 arg7 harg7 arg8 harg8 arg9 harg9 arg10 harg10 hc x0 x1 x2 x3 x4 xs).2.2.1 = [(⟨storeRect i, k0_pay1 x0 x1 x2 x3⟩ : View.Piece (Elt F) S4x512x256 .f32)] := by
  unfold runLast; dsimp only; sl_unfold_words
  simp only [View.readAt_eq_ld, harg3.read_unread, harg4.read_unread, harg5.read_unread, harg6.read_unread,
    View.ld_unit_zero (S := S512x2048) zeros2, View.ld_unit_zero (S := S1x256x2048) zeros3]
  rfl

/-- At the last gate the hidden output's one piece is the whole tile: the hidden formula over the four slices of the
    scratch after this point's store, and the block of the previous cell state. -/
theorem runLast_hidden (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    (runLast c i arg3 harg3 arg4 harg4 arg5 harg5 arg6 harg6 arg7 harg7 arg8 harg8 arg9 harg9 arg10 harg10 hc x0 x1 x2 x3 x4 xs).1
      = [(⟨Rect.unit (s := S512x256) ![0, 0] S512x256.size Facts₀.inb_S512x256_S512x256_0_0,
          k0_pay3 (slice (scratchAfter arg10 harg10 i xs (k0_pay1 x0 x1 x2 x3)) 0) (slice (scratchAfter arg10 harg10 i xs (k0_pay1 x0 x1 x2 x3)) 1)
            (slice (scratchAfter arg10 harg10 i xs (k0_pay1 x0 x1 x2 x3)) 2) (slice (scratchAfter arg10 harg10 i xs (k0_pay1 x0 x1 x2 x3)) 3) x4⟩ : View.Piece (Elt F) S512x256 .f32)] := by
  unfold runLast; dsimp only; sl_unfold_words
  simp only [View.readAt_eq_ld, harg3.read_unread, harg4.read_unread, harg5.read_unread, harg6.read_unread, harg7.read_unread,
    View.ld_unit_zero (S := S512x2048) zeros2, View.ld_unit_zero (S := S1x256x2048) zeros3, View.ld_unit_zero (S := S512x256) zeros2]
  rfl

/-- And the cell output's one piece: the cell formula over slices 0, 1 and 3. -/
theorem runLast_cell (c : Dev nD) (i : grid0.Coords) (arg3 : Memref sig .tc .vmem S512x2048 .f32) (harg3 : arg3.IsWhole) (arg4 : Memref sig .tc .vmem S512x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S4x512x256 .f32) (harg10 : arg10.IsWhole) (hc : lastGate i)
    (x0 : Vec F S512x2048 .f32) (x1 : Vec F S512x2048 .f32) (x2 : Vec F S1x256x2048 .bf16) (x3 : Vec F S1x256x2048 .bf16) (x4 : Vec F S512x256 .f32) (xs : Vec F S4x512x256 .f32) :
    (runLast c i arg3 harg3 arg4 harg4 arg5 harg5 arg6 harg6 arg7 harg7 arg8 harg8 arg9 harg9 arg10 harg10 hc x0 x1 x2 x3 x4 xs).2.1
      = [(⟨Rect.unit (s := S512x256) ![0, 0] S512x256.size Facts₀.inb_S512x256_S512x256_0_0,
          k0_pay2 (slice (scratchAfter arg10 harg10 i xs (k0_pay1 x0 x1 x2 x3)) 0) (slice (scratchAfter arg10 harg10 i xs (k0_pay1 x0 x1 x2 x3)) 1)
            (slice (scratchAfter arg10 harg10 i xs (k0_pay1 x0 x1 x2 x3)) 3) x4⟩ : View.Piece (Elt F) S512x256 .f32)] := by
  unfold runLast; dsimp only; sl_unfold_words
  simp only [View.readAt_eq_ld, harg3.read_unread, harg4.read_unread, harg5.read_unread, harg6.read_unread, harg7.read_unread,
    View.ld_unit_zero (S := S512x2048) zeros2, View.ld_unit_zero (S := S1x256x2048) zeros3, View.ld_unit_zero (S := S512x256) zeros2]
  rfl

end Cert.KernelIdeal.Step

end
-- ==== Proof.KernelIdealTiles.lean ====
/-
  The tiles one grid point computes, as pure terms over the blocks of the argument arrays.

  The grid is (batch tile, unit tile, gate) with the gate innermost, so a point's position t has gate t mod 4 and the
  four points of one (batch tile, unit tile) pair are consecutive: t - t mod 4 + k for k = 0, 1, 2, 3. The gate tile of
  a point is the body's stored value there, a function of that point's four input blocks; the hidden and cell tiles of
  a pair are the body's two output values over the four gate tiles of the pair and the pair's block of the previous
  cell state.
-/
import proofs.«118477_j7473243095127_2_alg».proof.Proof.Gen.KernelIdeal.Skeleton
import proofs.«118477_j7473243095127_2_alg».proof.Proof.Gen.KernelIdeal.Frame

noncomputable section

namespace Cert.KernelIdeal.Step

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The grid has 8 * 8 * 4 points. -/
theorem points_eq : cfg0.N = 256 := N_0

/-- The point of gate k in the (batch tile, unit tile) pair that point t belongs to. -/
def tilePoint (t : Fin cfg0.N) (k : Fin 4) : Fin cfg0.N :=
  ⟨t.val - t.val % 4 + k.val, by have h := t.isLt; have hN : cfg0.N = 256 := points_eq; have hk := k.isLt; omega⟩

@[simp] theorem tilePoint_val (t : Fin cfg0.N) (k : Fin 4) : (tilePoint t k).val = t.val - t.val % 4 + k.val := rfl

/-- The gate tile point t computes: its pre-activations for 512 batch rows and 256 units, from the point's blocks of
    the inputs, the previous hidden state and the gate's two weight matrices. -/
def gateTile (c : Dev nD) (t : Fin cfg0.N) : FVec F S1x512x256 .f32 :=
  k0_pay1 (iblk m c 0 t) (iblk m c 1 t) (iblk m c 2 t) (iblk m c 3 t)

/-- The new cell-state tile of t's pair: from the pair's input, forget and candidate gate tiles and its block of the
    previous cell state. -/
def cellTile (c : Dev nD) (t : Fin cfg0.N) : FVec F S512x256 .f32 :=
  k0_pay2 (gateTile m c (tilePoint t 0)) (gateTile m c (tilePoint t 1)) (gateTile m c (tilePoint t 3)) (iblk m c 4 t)

/-- The new hidden-state tile of t's pair: from all four gate tiles and the block of the previous cell state. -/
def hiddenTile (c : Dev nD) (t : Fin cfg0.N) : FVec F S512x256 .f32 :=
  k0_pay3 (gateTile m c (tilePoint t 0)) (gateTile m c (tilePoint t 1)) (gateTile m c (tilePoint t 2))
    (gateTile m c (tilePoint t 3)) (iblk m c 4 t)

end Cert.KernelIdeal.Step

end
-- ==== Proof.KernelIdealBody.lean ====
/-
  The frame of the one region, with the outputs named.

  INVARIANT. Before position n of the grid the four-slice scratch holds SOME contents d of which only this is known:
  slice k of d, for each k below n mod 4, is the gate tile computed at position n - n mod 4 + k — the gates of the
  current (batch tile, unit tile) pair stored so far. Before the first position, and whenever a pair has just been
  finished (n mod 4 = 0), this says nothing. One step of the body keeps it: the point at position n stores its gate
  tile into slice n mod 4 and leaves the other slices alone.

  OUTPUTS. The two output buffers are idle (untouched, not written back) at every point but the last gate of a pair.
  There the body has all four slices of the pair — three by the invariant, the fourth just stored — and writes the
  hidden and the cell tile of the pair, which the pipeline then writes back.
-/
import proofs.«118477_j7473243095127_2_alg».proof.Proof.KernelIdealPieces
import proofs.«118477_j7473243095127_2_alg».proof.Proof.KernelIdealTiles
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's control and schedule facts, decided once over the 256 points -/

/-- The last-gate condition holds exactly at the positions 3 mod 4. -/
theorem lastGate_iff : ∀ t : Fin cfg0.N, lastGate (grid0.coords t) ↔ t.val % 4 = 3 :=
  (by decide +kernel : ∀ t : Fin grid0.N, lastGate (grid0.coords t) ↔ t.val % 4 = 3)
/-- The gate coordinate of position t is t mod 4. -/
theorem gateCoord : ∀ t : Fin cfg0.N, ((grid0.coords t) 2).val = t.val % 4 :=
  (by decide +kernel : ∀ t : Fin grid0.N, ((grid0.coords t) 2).val = t.val % 4)
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
/-- Away from the last gate the hidden output is idle and not written back; at it, live. -/
theorem idle_5 : ∀ t : Fin cfg0.N, ¬lastGate (grid0.coords t) → cfg0.idle 5 (grid0.coords t) = true := by decide +kernel
theorem noFlush_5 : ∀ t : Fin cfg0.N, ¬lastGate (grid0.coords t) → (cfg0.win 5).flush t = false := by decide +kernel
theorem live_5 : ∀ t : Fin cfg0.N, lastGate (grid0.coords t) → cfg0.idle 5 (grid0.coords t) = false := by decide +kernel
/-- The same for the cell output. -/
theorem idle_6 : ∀ t : Fin cfg0.N, ¬lastGate (grid0.coords t) → cfg0.idle 6 (grid0.coords t) = true := by decide +kernel
theorem noFlush_6 : ∀ t : Fin cfg0.N, ¬lastGate (grid0.coords t) → (cfg0.win 6).flush t = false := by decide +kernel
theorem live_6 : ∀ t : Fin cfg0.N, lastGate (grid0.coords t) → cfg0.idle 6 (grid0.coords t) = false := by decide +kernel

/-! ## The staging memrefs at a point, and the scratch -/

abbrev stg0 (t : Fin cfg0.N) : Memref sig .tc .vmem S512x2048 .f32 := win0_0.stage (cfg0.slots t 0)
abbrev stgW0 (t : Fin cfg0.N) : (stg0 t).IsWhole := hstage0_0 ((cfg0.slots t 0).cast nbuf0_0)
abbrev stg1 (t : Fin cfg0.N) : Memref sig .tc .vmem S512x2048 .f32 := win0_1.stage (cfg0.slots t 1)
abbrev stgW1 (t : Fin cfg0.N) : (stg1 t).IsWhole := hstage0_1 ((cfg0.slots t 1).cast nbuf0_1)
abbrev stg2 (t : Fin cfg0.N) : Memref sig .tc .vmem S1x256x2048 .bf16 := win0_2.stage (cfg0.slots t 2)
abbrev stgW2 (t : Fin cfg0.N) : (stg2 t).IsWhole := hstage0_2 ((cfg0.slots t 2).cast nbuf0_2)
abbrev stg3 (t : Fin cfg0.N) : Memref sig .tc .vmem S1x256x2048 .bf16 := win0_3.stage (cfg0.slots t 3)
abbrev stgW3 (t : Fin cfg0.N) : (stg3 t).IsWhole := hstage0_3 ((cfg0.slots t 3).cast nbuf0_3)
abbrev stg4 (t : Fin cfg0.N) : Memref sig .tc .vmem S512x256 .f32 := win0_4.stage (cfg0.slots t 4)
abbrev stgW4 (t : Fin cfg0.N) : (stg4 t).IsWhole := hstage0_4 ((cfg0.slots t 4).cast nbuf0_4)
abbrev stg5 (t : Fin cfg0.N) : Memref sig .tc .vmem S512x256 .f32 := win0_5.stage (cfg0.slots t 5)
abbrev stgW5 (t : Fin cfg0.N) : (stg5 t).IsWhole := hstage0_5 ((cfg0.slots t 5).cast nbuf0_5)
abbrev stg6 (t : Fin cfg0.N) : Memref sig .tc .vmem S512x256 .f32 := win0_6.stage (cfg0.slots t 6)
abbrev stgW6 (t : Fin cfg0.N) : (stg6 t).IsWhole := hstage0_6 ((cfg0.slots t 6).cast nbuf0_6)
/-- The four-slice scratch: a whole scoped buffer of the kernel's own. -/
abbrev scratchM : Memref sig .tc .vmem S4x512x256 .f32 := Memref.whole cc0_scratch0

/-- What the launch hands the region and takes back: the scratch at some contents and the generator register. -/
theorem launchInv_eq (c : Dev nD) :
    (Pipeline.ΦA spec0 c : sProp 𝕄)
      = iprop(iprop((∃ d, owns (c : Thread nD τ) scratchM fullShare d)) ∗ (∃ r, prngReg c r)) := by
  unfold Pipeline.ΦA; rw [scopedRest0_eq]; simp only [scratchM, owns_whole]; try rfl

/-! ## The invariant -/

/-- The slices of the current pair stored before position n hold their gate tiles. -/
def Filled (c : Dev nD) (n : ℕ) (d : Vec F S4x512x256 .f32) : Prop :=
  ∀ (k : Fin 4) (s : Fin cfg0.N), k.val < n % 4 → s.val = n - n % 4 + k.val → slice d k = gateTile m c s

theorem filled_of_mod_zero (c : Dev nD) (n : ℕ) (hn : n % 4 = 0) (d : Vec F S4x512x256 .f32) : Filled m c n d := by
  intro k s hk _; rw [hn] at hk; exact absurd hk (Nat.not_lt_zero _)

/-- One step: after the point at position t stored its gate tile into its slice, the slices stored before position
    t + 1 hold their tiles. -/
theorem filled_step (c : Dev nD) (t : Fin cfg0.N) (d : Vec F S4x512x256 .f32) (hd : Filled m c t.val d)
    (M : Memref sig .tc .vmem S4x512x256 .f32) (hM : M.IsWhole) :
    Filled m c (t.val + 1) (scratchAfter M hM (grid0.coords t) d (gateTile m c t)) := by
  intro k s hk hs
  have hg := gateCoord t
  by_cases hkt : k.val = t.val % 4
  · have hst : s = t := Fin.ext (by omega)
    rw [hst]
    exact slice_scratchAfter_same M hM _ d _ k (by rw [hg, hkt])
  · rw [slice_scratchAfter_other M hM _ d _ k (by rw [hg]; exact fun h => hkt h.symm)]
    exact hd k s (by omega) (by omega)

/-- At the last gate of a pair, after the store, all four slices hold the pair's gate tiles. -/
theorem slices_at_last (c : Dev nD) (t : Fin cfg0.N) (h3 : t.val % 4 = 3) (d : Vec F S4x512x256 .f32) (hd : Filled m c t.val d)
    (M : Memref sig .tc .vmem S4x512x256 .f32) (hM : M.IsWhole) (k : Fin 4) :
    slice (scratchAfter M hM (grid0.coords t) d (gateTile m c t)) k = gateTile m c (tilePoint t k) := by
  have hg := gateCoord t
  by_cases hk : k.val = 3
  · have hst : tilePoint t k = t := Fin.ext (by rw [tilePoint_val]; omega)
    rw [hst]
    exact slice_scratchAfter_same M hM _ d _ k (by rw [hg, h3, hk])
  · rw [slice_scratchAfter_other M hM _ d _ k (by rw [hg, h3]; exact fun h => hk h.symm)]
    exact hd k (tilePoint t k) (by have := k.isLt; omega) (by rw [tilePoint_val])

/-- The region invariant before position n. -/
def Inv (c : Dev nD) (n : ℕ) : sProp 𝕄 :=
  iprop(iprop((∃ d, ⌜Filled m c n d⌝ ∗ owns (c : Thread nD τ) scratchM fullShare d)) ∗ (∃ r, prngReg c r))

/-! ## The proof data -/

/-- The arrays as the region finds them; after the body each input's buffer at its block, the hidden and cell
    outputs at the tiles of the point's pair (consulted only at the last gate: elsewhere those windows are idle);
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenTile m c t
    | ⟨6, _⟩ => cellTile m c t
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = hiddenTile m c t := by dsimp only [dats]
theorem after_6 (c : Dev nD) (t : Fin cfg0.N) : (dats m 0 c).after 6 t = cellTile m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point. The inputs' memrefs hold their blocks; the position says which control case the point is
    in; the invariant hands the body the scratch at contents whose earlier slices are known and takes it back with
    one more slice known (or, after the last gate, with nothing to know); an idle output buffer goes back as found,
    and at the last gate the output buffers end holding the pair's hidden and cell tiles. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  unfold Inv
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  by_cases h3 : t.val % 4 = 3
  · -- the last gate of a pair
    have hc : lastGate (grid0.coords t) := (lastGate_iff t).mpr h3
    rw [show (dats m 0 c).leavesExact 5 t = owns (c : Thread nD τ) (stg5 t) fullShare ((dats m 0 c).after 5 t) from by
      unfold Dat.leavesExact; rw [live_5 t hc], after_5]
    rw [show (dats m 0 c).leavesExact 6 t = owns (c : Thread nD τ) (stg6 t) fullShare ((dats m 0 c).after 6 t) from by
      unfold Dat.leavesExact; rw [live_6 t hc], after_6]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((runLast c (grid0.coords t) (stg0 t) (stgW0 t) (stg1 t) (stgW1 t) (stg2 t) (stgW2 t) (stg3 t) (stgW3 t) (stg4 t) (stgW4 t) (stg5 t) (stgW5 t) (stg6 t) (stgW6 t) scratchM (Memref.isWhole_whole _) hc (iblk m c 0 t) (iblk m c 1 t) (iblk m c 2 t) (iblk m c 3 t) (iblk m c 4 t) d).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%f5, H5⟩, ⟨%f6, H6⟩, HS⟩
    isplitl [HS Hg]
    · isplitl [HS]
      · iexists (scratchAfter scratchM (Memref.isWhole_whole _) (grid0.coords t) d (gateTile m c t))
        isplitr
        · ipureintro; exact filled_of_mod_zero m c _ (by omega) _
        · unfold owns; iexists _; isplitr
          swap; · iexact HS
          ipureintro; rw [runLast_scratch]; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      rw [runLast_hidden, Cert.Lib.SliceStore.read_store_whole _ _ zeros2]
      have e : ∀ k : Fin 4, slice (scratchAfter scratchM (Memref.isWhole_whole _) (grid0.coords t) d
          (k0_pay1 (iblk m c 0 t) (iblk m c 1 t) (iblk m c 2 t) (iblk m c 3 t))) k = gateTile m c (tilePoint t k) :=
        fun k => slices_at_last m c t h3 d hd _ _ k
      show k0_pay3 _ _ _ _ (iblk m c 4 t) = hiddenTile m c t
      unfold hiddenTile
      rw [e 0, e 1, e 2, e 3]
    · unfold owns; iexists _; isplitr
      swap; · iexact H6
      ipureintro
      rw [runLast_cell, Cert.Lib.SliceStore.read_store_whole _ _ zeros2]
      have e : ∀ k : Fin 4, slice (scratchAfter scratchM (Memref.isWhole_whole _) (grid0.coords t) d
          (k0_pay1 (iblk m c 0 t) (iblk m c 1 t) (iblk m c 2 t) (iblk m c 3 t))) k = gateTile m c (tilePoint t k) :=
        fun k => slices_at_last m c t h3 d hd _ _ k
      show k0_pay2 _ _ _ (iblk m c 4 t) = cellTile m c t
      unfold cellTile
      rw [e 0, e 1, e 3]
  · -- a point that only fills its slice
    have hc : ¬lastGate (grid0.coords t) := fun h => h3 ((lastGate_iff t).mp h)
    rw [Dat.leavesExact_idle (dats m 0 c) 5 t (idle_5 t hc) (noFlush_5 t hc)]
    rw [Dat.leavesExact_idle (dats m 0 c) 6 t (idle_6 t hc) (noFlush_6 t hc)]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((runFill c (grid0.coords t) (stg0 t) (stgW0 t) (stg1 t) (stgW1 t) (stg2 t) (stgW2 t) (stg3 t) (stgW3 t) (stg4 t) (stgW4 t) (stg5 t) (stgW5 t) (stg6 t) (stgW6 t) scratchM (Memref.isWhole_whole _) hc (iblk m c 0 t) (iblk m c 1 t) (iblk m c 2 t) (iblk m c 3 t) (iblk m c 4 t) d).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists (scratchAfter scratchM (Memref.isWhole_whole _) (grid0.coords t) d (gateTile m c t))
        isplitr
        · ipureintro; exact filled_step m c t d hd _ _
        · unfold owns; iexists _; isplitr
          swap; · iexact HS
          ipureintro; rw [runFill_scratch]; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first position (which says nothing of the slices). -/
theorem hin (c : Dev nD) : Pipeline.ΦA spec0 c ⊢ (dats m 0 c).Φ 0 := by
  rw [show (dats m 0 c).Φ 0 = Inv m c 0 from rfl, launchInv_eq]
  unfold Inv
  iintro ⟨⟨%d, HS⟩, Hg⟩
  isplitl [HS]
  · iexists d; isplitr
    · ipureintro; exact filled_of_mod_zero m c 0 rfl d
    · iexact HS
  iexact Hg

/-- After the last position the invariant gives the scratch back at some contents. -/
theorem hout (c : Dev nD) : (dats m 0 c).Φ (Fin.last cfg0.N) ⊢ Pipeline.ΦA spec0 c := by
  rw [show (dats m 0 c).Φ (Fin.last cfg0.N) = Inv m c (Fin.last cfg0.N).val from rfl, launchInv_eq]
  unfold Inv
  iintro ⟨⟨%d, %hd, HS⟩, Hg⟩
  isplitl [HS]
  · iexists d; iexact HS
  iexact Hg

/-! ## The run and the frame -/

set_option backward.isDefEq.respectTransparency.types false in
/-- Every weakly fair execution of the program terminates, and every final state has every array of the pipeline at
    what the proof data computes (the outputs: the write-backs of the pairs' tiles) and every other unscoped buffer
    as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Step

end
-- ==== Proof.Spec.lean ====
/-
  One step of a long short-term memory cell, as functions on arrays of extended reals.

  The inputs are a batch of 4096 input rows x and of 4096 previous hidden rows h, each of length 2048, the previous
  cell state c (4096 by 2048), and two stacks of four 2048-by-2048 weight matrices W and U, one matrix per gate, stored
  one output unit per row. The pre-activation of gate g for batch row b and unit u is

      gate g b u = (sum over i of x(b,i) * W(g,u,i)) + (sum over i of h(b,i) * U(g,u,i)).

  With s the logistic function, the new cell state and the new hidden state are

      cell b u   = s(gate 1 b u) * c(b,u) + s(gate 0 b u) * tanh(gate 3 b u)
      hidden b u = s(gate 2 b u) * tanh(cell b u).

  Everything is stated over the extended reals with the conventions of the exact instance (logistic and tanh total,
  0 at -oo and 1 at +oo for the logistic, -1 and 1 for tanh), so no finiteness is assumed anywhere: the only laws
  used later are that a product of two extended reals commutes and that the logistic function is the quotient
  1 / (1 + exp(-x)).
-/
import Idealize.ShloMosaic.PureOps.Ideal
import Idealize.ShloMosaic.Lib.ValueIdx

noncomputable section

open scoped BigOperators

namespace Cert.LstmStep

open Idealize.ShloMosaic Idealize.ShloMosaic.ValueIdx

/-- A batch of rows: 4096 by 2048. -/
abbrev Rows : Shape := ⟨2, ![4096, 2048]⟩
/-- Four weight matrices, one output unit per row: 4 by 2048 by 2048. -/
abbrev Weights : Shape := ⟨3, ![4, 2048, 2048]⟩

/-- The previous hidden and cell states stacked: 2 by 4096 by 2048. -/
abbrev Pair : Shape := ⟨3, ![2, 4096, 2048]⟩

/-- The previous hidden state: slab 0 of the stacked pair. -/
def prevHidden (p : Pair.Idx → EReal) : Rows.Idx → EReal := fun j => p (ix3 0 (j 0) (j 1))
/-- The previous cell state: slab 1 of the stacked pair. -/
def prevCell (p : Pair.Idx → EReal) : Rows.Idx → EReal := fun j => p (ix3 1 (j 0) (j 1))

/-- The pre-activation of gate g at batch row b and unit u. -/
def gate (x h : Rows.Idx → EReal) (W U : Weights.Idx → EReal) (g : Fin 4) (b : Fin 4096) (u : Fin 2048) : EReal :=
  (∑ i : Fin 2048, x (ix2 b i) * W (ix3 g u i)) + ∑ i : Fin 2048, h (ix2 b i) * U (ix3 g u i)

/-- The new cell state at (b, u): forget gate times old state plus input gate times candidate. -/
def cell (x h c : Rows.Idx → EReal) (W U : Weights.Idx → EReal) (b : Fin 4096) (u : Fin 2048) : EReal :=
  Ideal.logistic (gate x h W U 1 b u) * c (ix2 b u) + Ideal.logistic (gate x h W U 0 b u) * Ideal.tanh (gate x h W U 3 b u)

/-- The new hidden state at (b, u): output gate times tanh of the new cell state. -/
def hidden (x h c : Rows.Idx → EReal) (W U : Weights.Idx → EReal) (b : Fin 4096) (u : Fin 2048) : EReal :=
  Ideal.logistic (gate x h W U 2 b u) * Ideal.tanh (cell x h c W U b u)

/-- The new cell state as a whole array. -/
def cellArr (x h c : Rows.Idx → EReal) (W U : Weights.Idx → EReal) : Rows.Idx → EReal :=
  fun j => cell x h c W U (j 0) (j 1)

/-- The new hidden state as a whole array. -/
def hiddenArr (x h c : Rows.Idx → EReal) (W U : Weights.Idx → EReal) : Rows.Idx → EReal :=
  fun j => hidden x h c W U (j 0) (j 1)

end Cert.LstmStep

end
-- ==== Proof.PayloadsIdeal.lean ====
/-
  The arithmetic of one grid step of the LSTM kernel, read one entry at a time over the extended reals.

  A grid step holds a tile of 512 batch rows and 256 output units. It computes three values:

    * one gate's pre-activations on the tile: the product of the 512-by-2048 input rows with the transpose of the
      gate's 256-by-2048 input weights, plus the product of the 512-by-2048 previous hidden rows with the transpose of
      the gate's 256-by-2048 recurrent weights, stored with a leading axis of length one;
    * the new cell state on the tile, from three stored gate tiles and the old cell state;
    * the new hidden state on the tile, from a fourth gate tile and the new cell state.

  Over the extended reals a change of float format is the identity and a matrix product accumulated into zero is
  the plain sum over the contracted coordinate, so entry (r, l) of each value is the closed expression stated below:
  a sum of two 2048-term dot products, and the two LSTM update formulas with the logistic function and tanh.
-/
import proofs.«118477_j7473243095127_2_alg».proof.Proof.Gen.KernelIdeal.Skeleton
import proofs.«118477_j7473243095127_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LstmStep.Pay

open Idealize.ShloMosaic Idealize.ShloMosaic.ValueIdx Cert.KernelIdeal Cert.KernelIdeal.Gen

/-! ## The layout changes at an entry -/

/-- A 1-by-512-by-256 tile read as a 512-by-256 tile: entry (r, l) is entry (0, r, l). -/
theorem tile_drop_apply (v : Vec Ideal S1x512x256 .f32) (r : Fin 512) (l : Fin 256) :
    shapeCast S512x256 v shapeCasts_S1x512x256_S512x256 (ix2 r l) = v (ix3 0 r l) :=
  shapeCast_1ab_ab_apply v shapeCasts_S1x512x256_S512x256 r l

/-- A 1-by-256-by-2048 block of weights read as a 256-by-2048 matrix: entry (l, i) is entry (0, l, i). -/
theorem weights_drop_apply (w : Vec Ideal S1x256x2048 .bf16) (l : Fin 256) (i : Fin 2048) :
    shapeCast S256x2048 w shapeCasts_S1x256x2048_S256x2048 (ix2 l i) = w (ix3 0 l i) :=
  shapeCast_1ab_ab_apply w shapeCasts_S1x256x2048_S256x2048 l i

/-! ## The matrix product of a tile of rows with a transposed block of weights -/

/-- The left operand's row coordinate is the output's row coordinate, whatever the contraction position. -/
theorem lhs_row (j : S512x256.Idx) (q : dot_S512x2048_S256x2048_S512x256_1_1_0_0_n_n.contr.Idx) :
    (dot_S512x2048_S256x2048_S512x256_1_1_0_0_n_n.lhsIdx j q 0).val = (j 0).val := by
  unfold DotDims.lhsIdx
  rw [dif_neg (show ¬(0 : Fin S512x2048.rank) ∈ dot_S512x2048_S256x2048_S512x256_1_1_0_0_n_n.lhsBatch by decide),
    dif_pos (show (0 : Fin S512x2048.rank) ∈ dot_S512x2048_S256x2048_S512x256_1_1_0_0_n_n.lhsNonContracting by decide)]
  rfl

/-- The left operand's column coordinate is the contraction position. -/
theorem lhs_col (j : S512x256.Idx) (q : dot_S512x2048_S256x2048_S512x256_1_1_0_0_n_n.contr.Idx) :
    (dot_S512x2048_S256x2048_S512x256_1_1_0_0_n_n.lhsIdx j q 1).val = (q ⟨0, by decide⟩).val :=
  dot_S512x2048_S256x2048_S512x256_1_1_0_0_n_n.lhsIdx_val_of_single rfl j q

/-- The right operand's row coordinate is the output's column coordinate: the product is with the transpose. -/
theorem rhs_row (j : S512x256.Idx) (q : dot_S512x2048_S256x2048_S512x256_1_1_0_0_n_n.contr.Idx) :
    (dot_S512x2048_S256x2048_S512x256_1_1_0_0_n_n.rhsIdx j q 0).val = (j 1).val := by
  unfold DotDims.rhsIdx
  rw [dif_neg (show ¬(0 : Fin S256x2048.rank) ∈ dot_S512x2048_S256x2048_S512x256_1_1_0_0_n_n.rhsBatch by decide),
    dif_pos (show (0 : Fin S256x2048.rank) ∈ dot_S512x2048_S256x2048_S512x256_1_1_0_0_n_n.rhsNonContracting by decide)]
  rfl

/-- The right operand's column coordinate is the contraction position. -/
theorem rhs_col (j : S512x256.Idx) (q : dot_S512x2048_S256x2048_S512x256_1_1_0_0_n_n.contr.Idx) :
    (dot_S512x2048_S256x2048_S512x256_1_1_0_0_n_n.rhsIdx j q 1).val = (q ⟨0, by decide⟩).val :=
  dot_S512x2048_S256x2048_S512x256_1_1_0_0_n_n.rhsIdx_val_of_single rfl j q

/-- A 512-by-2048 matrix a times the transpose of a 256-by-2048 matrix b, accumulated into zero: entry (r, l) is the
    sum over i of a(r, i) * b(l, i). -/
theorem tile_dot_apply (a : FVec Ideal S512x2048 .bf16) (b : FVec Ideal S256x2048 .bf16) (r : Fin 512) (l : Fin 256) :
    matmul dot_S512x2048_S256x2048_S512x256_1_1_0_0_n_n none a b (constant (F := Ideal) S512x256 .f32 0x00000000#32) (ix2 r l)
      = ∑ i : Fin 2048, a (ix2 r i) * b (ix2 l i) := by
  refine (Ideal.matmul_constant_zero_apply dot_S512x2048_S256x2048_S512x256_1_1_0_0_n_n none a b (ix2 r l)).trans ?_
  rw [← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 r l) ((contrEquiv1 dot_S512x2048_S256x2048_S512x256_1_1_0_0_n_n 2048 rfl rfl).symm k) = ix2 r k :=
    funext fun c => Fin.ext (by
      match c with
      | ⟨0, _⟩ => exact lhs_row _ _
      | ⟨1, _⟩ => exact (lhs_col _ _).trans hk)
  have er : dot_S512x2048_S256x2048_S512x256_1_1_0_0_n_n.rhsIdx (ix2 r l) ((contrEquiv1 dot_S512x2048_S256x2048_S512x256_1_1_0_0_n_n 2048 rfl rfl).symm k) = ix2 l k :=
    funext fun c => Fin.ext (by
      match c with
      | ⟨0, _⟩ => exact rhs_row _ _
      | ⟨1, _⟩ => exact (rhs_col _ _).trans hk)
  rw [el, er]

/-! ## The three stored values at an entry -/

/-- One gate's pre-activation at tile entry (r, l): the dot product of input row r with the gate's input weights of
    unit l, plus the dot product of previous hidden row r with the gate's recurrent weights of unit l. The change of
    float format of the operands is the identity over the extended reals. -/
theorem pay1_apply (v0 v2 : Vec Ideal S512x2048 .f32) (v5 v8 : Vec Ideal S1x256x2048 .bf16) (r : Fin 512) (l : Fin 256) :
    k0_pay1 (F := Ideal) v0 v2 v5 v8 (ix3 0 r l)
      = (∑ i : Fin 2048, v0 (ix2 r i) * v5 (ix3 0 l i)) + ∑ i : Fin 2048, v2 (ix2 r i) * v8 (ix3 0 l i) := by
  unfold k0_pay1
  refine (shapeCast_ab_1ab_apply _ shapeCasts_S512x256_S1x512x256 0 r l).trans ?_
  rw [addf_apply, tile_dot_apply, tile_dot_apply, shapeCast_self]
  refine congrArg₂ (· + ·) (Finset.sum_congr rfl fun i _ => ?_) (Finset.sum_congr rfl fun i _ => ?_)
  · rw [truncf_apply, weights_drop_apply]
  · rw [truncf_apply, weights_drop_apply]

/-- The new cell state at tile entry (r, l): the logistic of the forget gate times the old cell state, plus the
    logistic of the input gate times tanh of the candidate gate. -/
theorem pay2_apply (v19 v22 v28 : Vec Ideal S1x512x256 .f32) (v31 : Vec Ideal S512x256 .f32) (r : Fin 512) (l : Fin 256) :
    k0_pay2 (F := Ideal) v19 v22 v28 v31 (ix2 r l)
      = Ideal.logistic (v22 (ix3 0 r l)) * v31 (ix2 r l) + Ideal.logistic (v19 (ix3 0 r l)) * Ideal.tanh (v28 (ix3 0 r l)) := by
  unfold k0_pay2
  show Ideal.logistic (shapeCast S512x256 v22 shapeCasts_S1x512x256_S512x256 (ix2 r l))
        * shapeCast S512x256 v31 shapeCasts_S512x256_S512x256 (ix2 r l)
      + Ideal.logistic (shapeCast S512x256 v19 shapeCasts_S1x512x256_S512x256 (ix2 r l))
        * Ideal.tanh (shapeCast S512x256 v28 shapeCasts_S1x512x256_S512x256 (ix2 r l)) = _
  rw [tile_drop_apply, tile_drop_apply, tile_drop_apply, shapeCast_self]

/-- The new hidden state at tile entry (r, l): the logistic of the output gate times tanh of the new cell state. -/
theorem pay3_apply (v19 v22 v25 v28 : Vec Ideal S1x512x256 .f32) (v31 : Vec Ideal S512x256 .f32) (r : Fin 512) (l : Fin 256) :
    k0_pay3 (F := Ideal) v19 v22 v25 v28 v31 (ix2 r l)
      = Ideal.logistic (v25 (ix3 0 r l)) * Ideal.tanh (k0_pay2 (F := Ideal) v19 v22 v28 v31 (ix2 r l)) := by
  unfold k0_pay3
  show Ideal.logistic (shapeCast S512x256 v25 shapeCasts_S1x512x256_S512x256 (ix2 r l))
      * Ideal.tanh (k0_pay2 (F := Ideal) v19 v22 v28 v31 (ix2 r l)) = _
  rw [tile_drop_apply]

end Cert.LstmStep.Pay

end
-- ==== Proof.KernelIdealBlocks.lean ====
/-
  From the tiles one grid point computes to the whole arrays of the LSTM step, over the extended reals.

  The grid is (batch tile, unit tile, gate), 8 by 8 by 4, with the gate innermost: the point at position t has batch
  tile t / 32, unit tile (t / 4) mod 8 and gate t mod 4. A batch tile is 512 of the 4096 rows, a unit tile 256 of the
  2048 units. At a point the blocks of the inputs are: rows (batch tile) * 512 + r of x and of h, all 2048 columns;
  rows (unit tile) * 256 + l of the gate's matrix of W and of U, all 2048 columns; and entry
  ((batch tile) * 512 + r, (unit tile) * 256 + l) of the previous cell state.

  So the gate tile of a point, read at (r, l), is the specification's pre-activation of the point's gate at that row
  and unit; the four points of a (batch tile, unit tile) pair give the four gates at the same row and unit, and the
  cell and hidden tiles of the pair are the specification's new cell and hidden states there. That is: each tile is
  the pair's block of the specification's array. The blocks written back at the last point of each pair cover the
  array: entry (b, u) lies in the block of the pair (b / 512, u / 256).
-/
import proofs.«118477_j7473243095127_2_alg».proof.Proof.KernelIdealTiles
import proofs.«118477_j7473243095127_2_alg».proof.Proof.PayloadsIdeal
import proofs.«118477_j7473243095127_2_alg».proof.Proof.Spec
import Idealize.ShloMosaic.Lib.Pipeline.Value
import Idealize.ShloMosaic.Lib.ValueIdx

noncomputable section

open scoped BigOperators

namespace Cert.LstmStep.Blocks

open Idealize.ShloMosaic Idealize.ShloMosaic.TcCoe Idealize.SL.Sem Idealize.ShloMosaic.ValueIdx
open Cert.KernelIdeal Cert.KernelIdeal.Gen Cert.KernelIdeal.Step

variable (m : (ℓ : Loc nD τ sig) → Buf (Elt Ideal) ℓ) (c : Dev nD)

/-! ## The arrays the region finds -/

/-- The input rows x, 4096 by 2048. -/
abbrev xArr : Rows.Idx → EReal := (V m c main_arg1 : S4096x2048.Idx → Elt Ideal .f32)
/-- The previous hidden rows h, 4096 by 2048. -/
abbrev hArr : Rows.Idx → EReal := (V m c main_v1 : S4096x2048.Idx → Elt Ideal .f32)
/-- The previous cell state, 4096 by 2048. -/
abbrev cArr : Rows.Idx → EReal := (V m c main_v3 : S4096x2048.Idx → Elt Ideal .f32)
/-- The four input weight matrices W, one output unit per row. -/
abbrev wArr : Weights.Idx → EReal := (V m c main_v4 : S4x2048x2048.Idx → Elt Ideal .bf16)
/-- The four recurrent weight matrices U, one output unit per row. -/
abbrev uArr : Weights.Idx → EReal := (V m c main_v5 : S4x2048x2048.Idx → Elt Ideal .bf16)

/-! ## Where each window's block sits: the index maps over the grid

A point's position t is batch tile * 32 + unit tile * 4 + gate. -/

/-- The blocks of x and of h are the batch tile's 512 rows, all 2048 columns. -/
theorem idx_rows : ∀ t : Fin cfg0.N, win0_0.index t (0 : Fin 2) = t.val / 32 ∧ win0_0.index t (1 : Fin 2) = 0
    ∧ win0_1.index t (0 : Fin 2) = t.val / 32 ∧ win0_1.index t (1 : Fin 2) = 0 :=
  (by decide +kernel : ∀ t : Fin grid0.N, _)

/-- The blocks of W and of U are the gate's matrix, the unit tile's 256 rows, all 2048 columns. -/
theorem idx_weights : ∀ t : Fin cfg0.N, win0_2.index t (0 : Fin 3) = t.val % 4 ∧ win0_2.index t (1 : Fin 3) = t.val / 4 % 8
    ∧ win0_2.index t (2 : Fin 3) = 0
    ∧ win0_3.index t (0 : Fin 3) = t.val % 4 ∧ win0_3.index t (1 : Fin 3) = t.val / 4 % 8
    ∧ win0_3.index t (2 : Fin 3) = 0 :=
  (by decide +kernel : ∀ t : Fin grid0.N, _)

/-- The blocks of the previous cell state and of the two results are the batch tile's rows and the unit tile's columns. -/
theorem idx_tiles : ∀ t : Fin cfg0.N, win0_4.index t (0 : Fin 2) = t.val / 32 ∧ win0_4.index t (1 : Fin 2) = t.val / 4 % 8
    ∧ win0_5.index t (0 : Fin 2) = t.val / 32 ∧ win0_5.index t (1 : Fin 2) = t.val / 4 % 8
    ∧ win0_6.index t (0 : Fin 2) = t.val / 32 ∧ win0_6.index t (1 : Fin 2) = t.val / 4 % 8 :=
  (by decide +kernel : ∀ t : Fin grid0.N, _)

/-! ## A block's entry is an array's entry -/

/-- Entry (r, i) of point s's block of x is x at row (batch tile of s) * 512 + r, column i. -/
theorem xblk_apply (s : Fin cfg0.N) (r : Fin 512) (i : Fin 2048) (b : Fin 4096) (hb : b.val = s.val / 32 * 512 + r.val) :
    (iblk m c 0 s : Vec Ideal S512x2048 .f32) (ix2 r i) = xArr m c (ix2 b i) := by
  obtain ⟨e0, e1, -, -⟩ := idx_rows s
  unfold iblk
  rw [View.read_apply]
  show (V m c main_arg1 : S4096x2048.Idx → EReal) (((cfg0.win 0).blk s).view.emb (ix2 r i))
    = (V m c main_arg1 : S4096x2048.Idx → EReal) (ix2 b i)
  refine congrArg _ (funext fun a => Fin.ext ?_)
  match a with
  | ⟨0, _⟩ => show win0_0.index s (0 : Fin 2) * 512 + 1 * r.val = b.val; omega
  | ⟨1, _⟩ => show win0_0.index s (1 : Fin 2) * 2048 + 1 * i.val = i.val; omega

/-- Entry (r, i) of point s's block of h is h at row (batch tile of s) * 512 + r, column i. -/
theorem hblk_apply (s : Fin cfg0.N) (r : Fin 512) (i : Fin 2048) (b : Fin 4096) (hb : b.val = s.val / 32 * 512 + r.val) :
    (iblk m c 1 s : Vec Ideal S512x2048 .f32) (ix2 r i) = hArr m c (ix2 b i) := by
  obtain ⟨-, -, e0, e1⟩ := idx_rows s
  unfold iblk
  rw [View.read_apply]
  show (V m c main_v1 : S4096x2048.Idx → EReal) (((cfg0.win 1).blk s).view.emb (ix2 r i))
    = (V m c main_v1 : S4096x2048.Idx → EReal) (ix2 b i)
  refine congrArg _ (funext fun a => Fin.ext ?_)
  match a with
  | ⟨0, _⟩ => show win0_1.index s (0 : Fin 2) * 512 + 1 * r.val = b.val; omega
  | ⟨1, _⟩ => show win0_1.index s (1 : Fin 2) * 2048 + 1 * i.val = i.val; omega

/-- Entry (0, l, i) of point s's block of W is W at gate (s mod 4), unit (unit tile of s) * 256 + l, column i. -/
theorem wblk_apply (s : Fin cfg0.N) (l : Fin 256) (i : Fin 2048) (g : Fin 4) (u : Fin 2048)
    (hg : g.val = s.val % 4) (hu : u.val = s.val / 4 % 8 * 256 + l.val) :
    (iblk m c 2 s : Vec Ideal S1x256x2048 .bf16) (ix3 0 l i) = wArr m c (ix3 g u i) := by
  obtain ⟨e0, e1, e2, -, -, -⟩ := idx_weights s
  unfold iblk
  rw [View.read_apply]
  show (V m c main_v4 : S4x2048x2048.Idx → EReal) (((cfg0.win 2).blk s).view.emb (ix3 0 l i))
    = (V m c main_v4 : S4x2048x2048.Idx → EReal) (ix3 g u i)
  refine congrArg _ (funext fun a => Fin.ext ?_)
  match a with
  | ⟨0, _⟩ => show win0_2.index s (0 : Fin 3) * 1 + 1 * (0 : Fin 1).val = g.val; rw [e0, hg]; show s.val % 4 * 1 + 1 * 0 = _; omega
  | ⟨1, _⟩ => show win0_2.index s (1 : Fin 3) * 256 + 1 * l.val = u.val; omega
  | ⟨2, _⟩ => show win0_2.index s (2 : Fin 3) * 2048 + 1 * i.val = i.val; omega

/-- Entry (0, l, i) of point s's block of U is U at gate (s mod 4), unit (unit tile of s) * 256 + l, column i. -/
theorem ublk_apply (s : Fin cfg0.N) (l : Fin 256) (i : Fin 2048) (g : Fin 4) (u : Fin 2048)
    (hg : g.val = s.val % 4) (hu : u.val = s.val / 4 % 8 * 256 + l.val) :
    (iblk m c 3 s : Vec Ideal S1x256x2048 .bf16) (ix3 0 l i) = uArr m c (ix3 g u i) := by
  obtain ⟨-, -, -, e0, e1, e2⟩ := idx_weights s
  unfold iblk
  rw [View.read_apply]
  show (V m c main_v5 : S4x2048x2048.Idx → EReal) (((cfg0.win 3).blk s).view.emb (ix3 0 l i))
    = (V m c main_v5 : S4x2048x2048.Idx → EReal) (ix3 g u i)
  refine congrArg _ (funext fun a => Fin.ext ?_)
  match a with
  | ⟨0, _⟩ => show win0_3.index s (0 : Fin 3) * 1 + 1 * (0 : Fin 1).val = g.val; rw [e0, hg]; show s.val % 4 * 1 + 1 * 0 = _; omega
  | ⟨1, _⟩ => show win0_3.index s (1 : Fin 3) * 256 + 1 * l.val = u.val; omega
  | ⟨2, _⟩ => show win0_3.index s (2 : Fin 3) * 2048 + 1 * i.val = i.val; omega

/-- Entry (r, l) of point s's block of the previous cell state is its entry at row (batch tile) * 512 + r and
    unit (unit tile) * 256 + l. -/
theorem cblk_apply (s : Fin cfg0.N) (r : Fin 512) (l : Fin 256) (b : Fin 4096) (u : Fin 2048)
    (hb : b.val = s.val / 32 * 512 + r.val) (hu : u.val = s.val / 4 % 8 * 256 + l.val) :
    (iblk m c 4 s : Vec Ideal S512x256 .f32) (ix2 r l) = cArr m c (ix2 b u) := by
  obtain ⟨e0, e1, -, -, -, -⟩ := idx_tiles s
  unfold iblk
  rw [View.read_apply]
  show (V m c main_v3 : S4096x2048.Idx → EReal) (((cfg0.win 4).blk s).view.emb (ix2 r l))
    = (V m c main_v3 : S4096x2048.Idx → EReal) (ix2 b u)
  refine congrArg _ (funext fun a => Fin.ext ?_)
  match a with
  | ⟨0, _⟩ => show win0_4.index s (0 : Fin 2) * 512 + 1 * r.val = b.val; omega
  | ⟨1, _⟩ => show win0_4.index s (1 : Fin 2) * 256 + 1 * l.val = u.val; omega

/-! ## The tiles at an entry -/

/-- The gate tile of point s at (r, l) is the specification's pre-activation of gate (s mod 4) at the tile's row and
    unit: both are the same two 2048-term dot products. -/
theorem gateTile_apply (s : Fin cfg0.N) (r : Fin 512) (l : Fin 256) (g : Fin 4) (b : Fin 4096) (u : Fin 2048)
    (hg : g.val = s.val % 4) (hb : b.val = s.val / 32 * 512 + r.val) (hu : u.val = s.val / 4 % 8 * 256 + l.val) :
    gateTile (F := Ideal) m c s (ix3 0 r l) = gate (xArr m c) (hArr m c) (wArr m c) (uArr m c) g b u := by
  unfold gateTile
  refine (Pay.pay1_apply (iblk m c 0 s) (iblk m c 1 s) (iblk m c 2 s) (iblk m c 3 s) r l).trans ?_
  unfold gate
  refine congrArg₂ (· + ·) (Finset.sum_congr rfl fun i _ => ?_) (Finset.sum_congr rfl fun i _ => ?_)
  · rw [xblk_apply m c s r i b hb, wblk_apply m c s l i g u hg hu]
  · rw [hblk_apply m c s r i b hb, ublk_apply m c s l i g u hg hu]

/-- The four points of a pair share its batch tile and unit tile, and the point of gate k has gate k. -/
theorem tilePoint_facts (t : Fin cfg0.N) (k : Fin 4) :
    k.val = (tilePoint t k).val % 4 ∧ (tilePoint t k).val / 32 = t.val / 32
      ∧ (tilePoint t k).val / 4 % 8 = t.val / 4 % 8 := by
  have hk := k.isLt
  rw [tilePoint_val]
  omega

/-- The gate tile of gate k of t's pair at (r, l) is the specification's pre-activation of gate k at the pair's row
    and unit. -/
theorem pairGate_apply (t : Fin cfg0.N) (k : Fin 4) (r : Fin 512) (l : Fin 256) (b : Fin 4096) (u : Fin 2048)
    (hb : b.val = t.val / 32 * 512 + r.val) (hu : u.val = t.val / 4 % 8 * 256 + l.val) :
    gateTile (F := Ideal) m c (tilePoint t k) (ix3 0 r l) = gate (xArr m c) (hArr m c) (wArr m c) (uArr m c) k b u := by
  obtain ⟨f0, f1, f2⟩ := tilePoint_facts t k
  exact gateTile_apply m c (tilePoint t k) r l k b u f0 (by rw [f1]; exact hb) (by rw [f2]; exact hu)

/-- The cell update applied to the pair's input, forget and candidate gate tiles and its block of the previous cell
    state is, at (r, l), the specification's new cell state at the pair's row and unit. -/
theorem pairCell_apply (t : Fin cfg0.N) (r : Fin 512) (l : Fin 256) (b : Fin 4096) (u : Fin 2048)
    (hb : b.val = t.val / 32 * 512 + r.val) (hu : u.val = t.val / 4 % 8 * 256 + l.val) :
    k0_pay2 (F := Ideal) (gateTile m c (tilePoint t 0)) (gateTile m c (tilePoint t 1)) (gateTile m c (tilePoint t 3))
        (iblk m c 4 t) (ix2 r l)
      = cell (xArr m c) (hArr m c) (cArr m c) (wArr m c) (uArr m c) b u := by
  refine (Pay.pay2_apply (gateTile m c (tilePoint t 0)) (gateTile m c (tilePoint t 1)) (gateTile m c (tilePoint t 3))
    (iblk m c 4 t) r l).trans ?_
  unfold cell
  rw [pairGate_apply m c t 1 r l b u hb hu, pairGate_apply m c t 0 r l b u hb hu, pairGate_apply m c t 3 r l b u hb hu,
    cblk_apply m c t r l b u hb hu]

/-- The cell tile of t's pair at (r, l) is the specification's new cell state at the pair's row and unit. -/
theorem cellTile_apply (t : Fin cfg0.N) (r : Fin 512) (l : Fin 256) (b : Fin 4096) (u : Fin 2048)
    (hb : b.val = t.val / 32 * 512 + r.val) (hu : u.val = t.val / 4 % 8 * 256 + l.val) :
    cellTile (F := Ideal) m c t (ix2 r l) = cell (xArr m c) (hArr m c) (cArr m c) (wArr m c) (uArr m c) b u := by
  unfold cellTile
  exact pairCell_apply m c t r l b u hb hu

/-- The hidden tile of t's pair at (r, l) is the specification's new hidden state at the pair's row and unit. -/
theorem hiddenTile_apply (t : Fin cfg0.N) (r : Fin 512) (l : Fin 256) (b : Fin 4096) (u : Fin 2048)
    (hb : b.val = t.val / 32 * 512 + r.val) (hu : u.val = t.val / 4 % 8 * 256 + l.val) :
    hiddenTile (F := Ideal) m c t (ix2 r l) = hidden (xArr m c) (hArr m c) (cArr m c) (wArr m c) (uArr m c) b u := by
  unfold hiddenTile
  refine (Pay.pay3_apply (gateTile m c (tilePoint t 0)) (gateTile m c (tilePoint t 1)) (gateTile m c (tilePoint t 2))
    (gateTile m c (tilePoint t 3)) (iblk m c 4 t) r l).trans ?_
  unfold hidden
  rw [pairGate_apply m c t 2 r l b u hb hu, pairCell_apply m c t r l b u hb hu]

/-! ## The tiles are blocks of the specification's arrays -/

/-- The hidden tile of a pair is the pair's block of the specification's new hidden state. -/
theorem hiddenTile_eq (t : Fin cfg0.N) (ht : t.val % 4 = 3) :
    hiddenTile (F := Ideal) m c t = ((cfg0.win 5).blk t).view.read (Elt Ideal)
      (hiddenArr (xArr m c) (hArr m c) (cArr m c) (wArr m c) (uArr m c)) := by
  funext j
  obtain ⟨r, l, rfl⟩ : ∃ (r : Fin 512) (l : Fin 256), j = ix2 r l := ⟨j 0, j 1, eq_ix2 j⟩
  obtain ⟨-, -, e0, e1, -, -⟩ := idx_tiles t
  have hN : cfg0.N = 256 := points_eq
  have hlt := t.isLt
  rw [View.read_apply]
  show hiddenTile (F := Ideal) m c t (ix2 r l)
    = hidden (xArr m c) (hArr m c) (cArr m c) (wArr m c) (uArr m c)
        ((((cfg0.win 5).blk t).view.emb (ix2 r l) : S4096x2048.Idx) 0) ((((cfg0.win 5).blk t).view.emb (ix2 r l) : S4096x2048.Idx) 1)
  refine hiddenTile_apply m c t r l _ _ ?_ ?_
  · show win0_5.index t (0 : Fin 2) * 512 + 1 * r.val = t.val / 32 * 512 + r.val; omega
  · show win0_5.index t (1 : Fin 2) * 256 + 1 * l.val = t.val / 4 % 8 * 256 + l.val; omega

/-- The cell tile of a pair is the pair's block of the specification's new cell state. -/
theorem cellTile_eq (t : Fin cfg0.N) (ht : t.val % 4 = 3) :
    cellTile (F := Ideal) m c t = ((cfg0.win 6).blk t).view.read (Elt Ideal)
      (cellArr (xArr m c) (hArr m c) (cArr m c) (wArr m c) (uArr m c)) := by
  funext j
  obtain ⟨r, l, rfl⟩ : ∃ (r : Fin 512) (l : Fin 256), j = ix2 r l := ⟨j 0, j 1, eq_ix2 j⟩
  obtain ⟨-, -, -, -, e0, e1⟩ := idx_tiles t
  have hN : cfg0.N = 256 := points_eq
  have hlt := t.isLt
  rw [View.read_apply]
  show cellTile (F := Ideal) m c t (ix2 r l)
    = cell (xArr m c) (hArr m c) (cArr m c) (wArr m c) (uArr m c)
        ((((cfg0.win 6).blk t).view.emb (ix2 r l) : S4096x2048.Idx) 0) ((((cfg0.win 6).blk t).view.emb (ix2 r l) : S4096x2048.Idx) 1)
  refine cellTile_apply m c t r l _ _ ?_ ?_
  · show win0_6.index t (0 : Fin 2) * 512 + 1 * r.val = t.val / 32 * 512 + r.val; omega
  · show win0_6.index t (1 : Fin 2) * 256 + 1 * l.val = t.val / 4 % 8 * 256 + l.val; omega

/-! ## The blocks written back cover the arrays -/

/-- An entry of the new hidden state is in point t's block iff each coordinate is in the block's range on its axis. -/
theorem mem_blk5 (t : Fin cfg0.N) (i : S4096x2048.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v6_0).slice (win0_5.rect t)).set ↔ _
  rw [View.set_slice_whole, Rect.mem_set_unit]
  exact Iff.rfl

/-- The same for the new cell state. -/
theorem mem_blk6 (t : Fin cfg0.N) (i : S4096x2048.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_v6_1).slice (win0_6.rect t)).set ↔ _
  rw [View.set_slice_whole, Rect.mem_set_unit]
  exact Iff.rfl

/-- The last point of the pair (b / 512, u / 256): position (b / 512) * 32 + (u / 256) * 4 + 3. -/
theorem lastPoint (i : S4096x2048.Idx) : ∃ t : Fin cfg0.N, t.val = (i 0).val / 512 * 32 + (i 1).val / 256 * 4 + 3 := by
  have h0 : (i 0).val < 4096 := (i 0).isLt
  have h1 : (i 1).val < 2048 := (i 1).isLt
  have hN : cfg0.N = 256 := points_eq
  exact ⟨⟨(i 0).val / 512 * 32 + (i 1).val / 256 * 4 + 3, by omega⟩, rfl⟩

/-- Every entry (b, u) of the new hidden state is in the block written back at the last point of its pair. -/
theorem covered5 (i : S4096x2048.Idx) :
    ∃ t : Fin cfg0.N, (cfg0.win 5).flush t = true ∧ i ∈ ((cfg0.win 5).blk t).view.set := by
  have h0 : (i 0).val < 4096 := (i 0).isLt
  have h1 : (i 1).val < 2048 := (i 1).isLt
  obtain ⟨t, ht⟩ := lastPoint i
  obtain ⟨-, -, e0, e1, -, -⟩ := idx_tiles t
  refine ⟨t, (flush0_5 t).mpr (by omega), ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- Every entry (b, u) of the new cell state is in the block written back at the last point of its pair. -/
theorem covered6 (i : S4096x2048.Idx) :
    ∃ t : Fin cfg0.N, (cfg0.win 6).flush t = true ∧ i ∈ ((cfg0.win 6).blk t).view.set := by
  have h0 : (i 0).val < 4096 := (i 0).isLt
  have h1 : (i 1).val < 2048 := (i 1).isLt
  obtain ⟨t, ht⟩ := lastPoint i
  obtain ⟨-, -, -, -, e0, e1⟩ := idx_tiles t
  refine ⟨t, (flush0_6 t).mpr (by omega), ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- The blocks of the new hidden state written back at the last points of the pairs cover its array. -/
theorem cover5 : ∀ i : ((cfg0.win 5).arr.view.loc (c.tc : Thread nD τ)).2.ty.Idx,
    ∃ t : Fin cfg0.N, (cfg0.win 5).flush t = true ∧ i ∈ ((cfg0.win 5).blk t).view.set :=
  fun i => covered5 i

/-- The blocks of the new cell state written back at the last points of the pairs cover its array. -/
theorem cover6 : ∀ i : ((cfg0.win 6).arr.view.loc (c.tc : Thread nD τ)).2.ty.Idx,
    ∃ t : Fin cfg0.N, (cfg0.win 6).flush t = true ∧ i ∈ ((cfg0.win 6).blk t).view.set :=
  fun i => covered6 i

end Cert.LstmStep.Blocks

end
-- ==== Proof.HostSides.lean ====
/-
  The host operations around the kernel's region, and the tail both programs share.

  Before its region the kernel's program prepares four arrays from its arguments: slab 0 and slab 1 of the stacked pair
  of previous states, each with its leading axis of extent one dropped (the previous hidden state and the previous
  cell state), and the two stacks of weight matrices changed to a narrower float format. Over the extended reals a
  change of format is the identity, so the region finds the weights exactly as launched; and entry (b, u) of slab s
  with the unit axis dropped is entry (s, b, u) of the stack, which is how the specification names the previous states.

  After its region the program gives each of the region's two results, the new hidden state and the new cell state,
  a leading axis of extent one and stacks them along it. The reference ends with the very same three operations on
  its own new hidden and cell states. That tail is named here once, as one function of two arrays, so that the two
  programs' final arrays are equal as soon as the arrays that go into it are: it is never opened.
-/
import proofs.«118477_j7473243095127_2_alg».proof.Proof.Gen.KernelIdeal.Frame
import proofs.«118477_j7473243095127_2_alg».proof.Proof.Gen.ReferenceIdeal.Read
import proofs.«118477_j7473243095127_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.Pipeline.FrameSuffix

noncomputable section

namespace Cert.LstmStep.Host

open Idealize.ShloMosaic Idealize.ShloMosaic.TcCoe Idealize.ShloMosaic.ValueIdx Idealize.SL.Sem
open Cert.KernelIdeal Cert.KernelIdeal.Gen

/-! ## The common tail -/

/-- The tail of both programs as one function of the new hidden state h and the new cell state c: each is given a
    leading axis of extent one, and the two are stacked along that axis, h first. -/
def stack (h c : FVec Ideal S4096x2048 .f32) : FVec Ideal S2x4096x2048 .f32 :=
  concatenate S2x4096x2048 0
    [⟨S1x4096x2048, broadcastInDim S1x4096x2048 ![1, 2] bcast_S4096x2048_S1x4096x2048_1_2 h⟩,
     ⟨S1x4096x2048, broadcastInDim S1x4096x2048 ![1, 2] bcast_S4096x2048_S1x4096x2048_1_2 c⟩]
    concatenates_S1x4096x2048_S1x4096x2048_S2x4096x2048_d0

/-- The reference's final array is the tail applied to its new hidden state and its new cell state. -/
theorem ref_result (x0 : (⟨Cert.ReferenceIdeal.S2x4096x2048, .f32⟩ : BufTy).Contents (Elt Ideal))
    (x1 : (⟨Cert.ReferenceIdeal.S4096x2048, .f32⟩ : BufTy).Contents (Elt Ideal))
    (x2 x3 : (⟨Cert.ReferenceIdeal.S4x2048x2048, .f32⟩ : BufTy).Contents (Elt Ideal)) :
    Cert.ReferenceIdeal.Read.val_main_v43 (F := Ideal) x0 x1 x2 x3
      = stack (Cert.ReferenceIdeal.Read.val_main_v40 (F := Ideal) x0 x1 x2 x3)
          (Cert.ReferenceIdeal.Read.val_main_v38 (F := Ideal) x0 x1 x2 x3) := by
  unfold Cert.ReferenceIdeal.Read.val_main_v43 Cert.ReferenceIdeal.Read.val_main_v41
    Cert.ReferenceIdeal.Read.val_main_v42 stack
  rfl

/-! ## A slab of the stacked pair with its unit axis dropped -/

/-- Slab 0 of a stack of two 4096 by 2048 arrays, with the leading unit axis dropped, reads at (b, u) the stack's
    entry (0, b, u). -/
theorem slab0_at (x : FVec Ideal S2x4096x2048 .f32) (b : Fin 4096) (u : Fin 2048) :
    shapeCast S4096x2048 (extractStridedSlice S1x4096x2048 ![0, 0, 0] x slices_S2x4096x2048_S1x4096x2048_0_0_0)
        shapeCasts_S1x4096x2048_S4096x2048 (ix2 b u) = x (ix3 0 b u) :=
  (shapeCast_1ab_ab_apply _ shapeCasts_S1x4096x2048_S4096x2048 b u).trans
    (extractStridedSlice_apply ![0, 0, 0] x slices_S2x4096x2048_S1x4096x2048_0_0_0 (ix3 (0 : Fin 1) b u) (ix3 0 b u)
      (fun a => match a with
        | ⟨0, _⟩ => rfl
        | ⟨1, _⟩ => (Nat.zero_add b.val).symm
        | ⟨2, _⟩ => (Nat.zero_add u.val).symm))

/-- Slab 1 of the stack, with the leading unit axis dropped, reads at (b, u) the stack's entry (1, b, u). -/
theorem slab1_at (x : FVec Ideal S2x4096x2048 .f32) (b : Fin 4096) (u : Fin 2048) :
    shapeCast S4096x2048 (extractStridedSlice S1x4096x2048 ![1, 0, 0] x slices_S2x4096x2048_S1x4096x2048_1_0_0)
        shapeCasts_S1x4096x2048_S4096x2048 (ix2 b u) = x (ix3 1 b u) :=
  (shapeCast_1ab_ab_apply _ shapeCasts_S1x4096x2048_S4096x2048 b u).trans
    (extractStridedSlice_apply ![1, 0, 0] x slices_S2x4096x2048_S1x4096x2048_1_0_0 (ix3 (0 : Fin 1) b u) (ix3 1 b u)
      (fun a => match a with
        | ⟨0, _⟩ => rfl
        | ⟨1, _⟩ => (Nat.zero_add b.val).symm
        | ⟨2, _⟩ => (Nat.zero_add u.val).symm))

/-! ## What the region finds -/

variable (m : (ℓ : Loc nD τ sig) → Buf (Elt Ideal) ℓ)

/-- The array the region reads as the previous hidden state is the specification's: slab 0 of the launched pair. -/
theorem entry_hidden (c : Dev nD) :
    (V (F := Ideal) m c main_v1 : S4096x2048.Idx → EReal)
      = Cert.LstmStep.prevHidden (m ((c : Thread nD τ).loc main_arg0)) := by
  show StableHlo.after hostOps0 (fun b => m (c, b)) (Proc.devRef .tc main_v1) = _
  after_results
  funext j
  obtain ⟨b, u, rfl⟩ : ∃ (b : Fin 4096) (u : Fin 2048), j = ix2 b u := ⟨j 0, j 1, eq_ix2 j⟩
  exact slab0_at (m ((c : Thread nD τ).loc main_arg0)) b u

/-- The array the region reads as the previous cell state is the specification's: slab 1 of the launched pair. -/
theorem entry_cell (c : Dev nD) :
    (V (F := Ideal) m c main_v3 : S4096x2048.Idx → EReal)
      = Cert.LstmStep.prevCell (m ((c : Thread nD τ).loc main_arg0)) := by
  show StableHlo.after hostOps0 (fun b => m (c, b)) (Proc.devRef .tc main_v3) = _
  after_results
  funext j
  obtain ⟨b, u, rfl⟩ : ∃ (b : Fin 4096) (u : Fin 2048), j = ix2 b u := ⟨j 0, j 1, eq_ix2 j⟩
  exact slab1_at (m ((c : Thread nD τ).loc main_arg0)) b u

/-- The input weights the region reads are the launched ones: over the extended reals the change to the narrower
    float format is the identity. -/
theorem entry_W (c : Dev nD) :
    (V (F := Ideal) m c main_v4 : S4x2048x2048.Idx → EReal) = m ((c : Thread nD τ).loc main_arg2) := by
  show StableHlo.after hostOps0 (fun b => m (c, b)) (Proc.devRef .tc main_v4) = _
  after_results
  rfl

/-- The recurrent weights the region reads are the launched ones, for the same reason. -/
theorem entry_U (c : Dev nD) :
    (V (F := Ideal) m c main_v5 : S4x2048x2048.Idx → EReal) = m ((c : Thread nD τ).loc main_arg3) := by
  show StableHlo.after hostOps0 (fun b => m (c, b)) (Proc.devRef .tc main_v5) = _
  after_results
  rfl

/-! ## What the program returns -/

/-- The program's final array is the tail applied to the two arrays the region leaves: its first result (the new
    hidden state) and its second (the new cell state), whatever those are. -/
theorem tail_result (dats : (p : Fin 1) → (c : Dev nD) → Pipeline.Dat τ (Elt Ideal) Unit ℕ (UR sig nD τ) ℕ (cfgs p) c)
    (c : Dev nD) :
    Pipeline.afterTail₀ cfgs dats 0 (V0 m) [hostOps1] c main_v9
      = stack ((dats 0 c).arrAt 5 cfg0.N) ((dats 0 c).arrAt 6 cfg0.N) := by
  unfold Pipeline.afterTail₀
  show StableHlo.after hostOps1 _ (Proc.devRef .tc main_v9) = _
  after_results
  have h5 : Pipeline.withArrays (cfgs 0).spec c (V0 m c) (fun w => (dats 0 c).arrAt w (cfgs 0).N)
      (Proc.devRef .tc main_v6_0) = (dats 0 c).arrAt 5 cfg0.N :=
    Pipeline.withArrays_arr spec0 launch0.win.arr_inj c _ _ 5
  have h6 : Pipeline.withArrays (cfgs 0).spec c (V0 m c) (fun w => (dats 0 c).arrAt w (cfgs 0).N)
      (Proc.devRef .tc main_v6_1) = (dats 0 c).arrAt 6 cfg0.N :=
    Pipeline.withArrays_arr spec0 launch0.win.arr_inj c _ _ 6
  rw [h5, h6]
  rfl

end Cert.LstmStep.Host

end
-- ==== Proof.KernelValue.lean ====
/-
  The idealized kernel's result, as one function of its arguments.

  The frame run of the idealized kernel ends with the hidden and the cell array at what the write-backs of the tiles
  leave. Each write-back happens at the last gate of a (batch tile, unit tile) pair and writes the pair's tile, which
  is the corresponding block of the specification's array; the 64 blocks tile the array; so each array ends holding
  the specification's whole array. The host lines after the region stack the two arrays. With the region-entry
  arrays read off the host lines before the region — the two slabs of the stacked previous state, the weights
  unchanged by the change of float format — the result is the stack of the new hidden and cell states of the
  specification, as a function of the four argument arrays alone.
-/
import proofs.«118477_j7473243095127_2_alg».proof.Proof.KernelIdealBody
import proofs.«118477_j7473243095127_2_alg».proof.Proof.KernelIdealBlocks
import proofs.«118477_j7473243095127_2_alg».proof.Proof.HostSides
import proofs.«118477_j7473243095127_2_alg».proof.Proof.Spec
import Idealize.ShloMosaic.Lib.Pipeline.Value

set_option maxRecDepth 16384

noncomputable section

namespace Cert.LstmStep.Final

open Cert.KernelIdeal Cert.KernelIdeal.Gen Cert.KernelIdeal.Step
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result as a function of the arguments: the new hidden state stacked on the new cell state. -/
def result (c : Dev nD) : Buf (Elt Ideal) ((c.tc : Thread nD τ).loc main_v9) :=
  Cert.LstmStep.Host.stack
    (Cert.LstmStep.hiddenArr (m ((c.tc : Thread nD τ).loc main_arg1)) (Cert.LstmStep.prevHidden (m ((c.tc : Thread nD τ).loc main_arg0)))
      (Cert.LstmStep.prevCell (m ((c.tc : Thread nD τ).loc main_arg0))) (m ((c.tc : Thread nD τ).loc main_arg2)) (m ((c.tc : Thread nD τ).loc main_arg3)))
    (Cert.LstmStep.cellArr (m ((c.tc : Thread nD τ).loc main_arg1)) (Cert.LstmStep.prevHidden (m ((c.tc : Thread nD τ).loc main_arg0)))
      (Cert.LstmStep.prevCell (m ((c.tc : Thread nD τ).loc main_arg0))) (m ((c.tc : Thread nD τ).loc main_arg2)) (m ((c.tc : Thread nD τ).loc main_arg3)))

/-- What a write-back of the hidden window writes is the pair's hidden tile (the window's blocks are whole). -/
theorem flushed_hidden (c : Dev nD) (t : Fin cfg0.N) : (dats m 0 c).flushed 5 t = hiddenTile m c t := by
  show (cfg0.win 5).cut (cfg0.grid.coords t) ((dats m 0 c).after 5 t) = _
  rw [after_5]; rfl

/-- And of the cell window the pair's cell tile. -/
theorem flushed_cell (c : Dev nD) (t : Fin cfg0.N) : (dats m 0 c).flushed 6 t = cellTile m c t := by
  show (cfg0.win 6).cut (cfg0.grid.coords t) ((dats m 0 c).after 6 t) = _
  rw [after_6]; rfl

/-- The hidden array after the run is the specification's, over the region-entry arrays. -/
theorem hidden_array (c : Dev nD) :
    (dats m 0 c).arrAt 5 cfg0.N
      = Cert.LstmStep.hiddenArr (Cert.LstmStep.Blocks.xArr m c) (Cert.LstmStep.Blocks.hArr m c) (Cert.LstmStep.Blocks.cArr m c)
          (Cert.LstmStep.Blocks.wArr m c) (Cert.LstmStep.Blocks.uArr m c) :=
  (dats m 0 c).arrAt_eq_of_cover 5 _
    (fun t hf => (flushed_hidden m c t).trans (Cert.LstmStep.Blocks.hiddenTile_eq m c t ((flush0_5 t).mp hf)))
    (Cert.LstmStep.Blocks.cover5 c)

/-- The cell array likewise. -/
theorem cell_array (c : Dev nD) :
    (dats m 0 c).arrAt 6 cfg0.N
      = Cert.LstmStep.cellArr (Cert.LstmStep.Blocks.xArr m c) (Cert.LstmStep.Blocks.hArr m c) (Cert.LstmStep.Blocks.cArr m c)
          (Cert.LstmStep.Blocks.wArr m c) (Cert.LstmStep.Blocks.uArr m c) :=
  (dats m 0 c).arrAt_eq_of_cover 6 _
    (fun t hf => (flushed_cell m c t).trans (Cert.LstmStep.Blocks.cellTile_eq m c t ((flush0_6 t).mp hf)))
    (Cert.LstmStep.Blocks.cover6 c)

/-- The region-entry arrays are the arguments: the inputs as launched, the two slabs of the stacked previous
    state, the weights as launched (a change of float format is the identity on extended reals). -/
theorem entry_arrays (c : Dev nD) :
    Cert.LstmStep.Blocks.xArr m c = m ((c.tc : Thread nD τ).loc main_arg1)
    ∧ Cert.LstmStep.Blocks.hArr m c = Cert.LstmStep.prevHidden (m ((c.tc : Thread nD τ).loc main_arg0))
    ∧ Cert.LstmStep.Blocks.cArr m c = Cert.LstmStep.prevCell (m ((c.tc : Thread nD τ).loc main_arg0))
    ∧ Cert.LstmStep.Blocks.wArr m c = m ((c.tc : Thread nD τ).loc main_arg2)
    ∧ Cert.LstmStep.Blocks.uArr m c = m ((c.tc : Thread nD τ).loc main_arg3) :=
  ⟨V_main_arg1 m c, Cert.LstmStep.Host.entry_hidden m c, Cert.LstmStep.Host.entry_cell m c,
    Cert.LstmStep.Host.entry_W m c, Cert.LstmStep.Host.entry_U m c⟩

/-- The result buffer after the host lines that follow the region. -/
theorem tail_value (c : Dev nD) :
    Pipeline.afterTail₀ cfgs (dats m) 0 (V0 m) [hostOps1] c main_v9 = result m c := by
  rw [Cert.LstmStep.Host.tail_result m (dats m) c, hidden_array m c, cell_array m c]
  obtain ⟨hx, hh, hc, hw, hu⟩ := entry_arrays m c
  rw [hx, hh, hc, hw, hu]
  rfl

/-- The idealized kernel runs, ends with its result at the specification's function of the arguments, and leaves
    the four argument arrays unchanged. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 (by decide) (by decide))).trans (tail_value m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main (F := Ideal) m ρ)

end Cert.LstmStep.Final

end
-- ==== Proof.LibSigmoid.lean ====
/-
  The logistic function over the extended reals, against the quotient a host program spells for it.

  Over the extended reals the logistic function is by definition the quotient 1 / (1 + e^(-x)), with the
  conventions e^(-oo) = 0 and e^(+oo) = +oo, so that it is 0 at -oo and 1 at +oo. A host program that expands the
  sigmoid writes that very quotient with its own negation, exponential, sum and quotient, and with the
  single-precision word 0x3F800000 for the numerator and the summand; that word denotes the real number 1. Hence a
  kernel's one-operation logistic and the host's four-operation expansion are the same function of x, at every
  extended real x, the infinities included: no finiteness is needed.

  With tanh likewise one function on both sides, a gated recurrent cell
      r = s(a_r + b_r),  z = s(a_z + b_z),  n = tanh(a_n + r * b_n),  h' = (1 - z) * n + z * h
  computed with s the logistic operation is, entry by entry, the cell computed with s the spelled-out quotient.
-/
import Idealize.ShloMosaic.PureOps.Ideal
import Idealize.ShloMosaic.PureOps.Vector

noncomputable section

namespace Cert.Lib.Sigmoid

open Idealize.ShloMosaic

/-- The single-precision word 0x3F800000 denotes the real number 1. -/
theorem ofBits_one_f32 : Ideal.ofBits .f32 0x3F800000#32 = 1 := by
  simp [Ideal.ofBits, Ideal.ieee, -EReal.coe_mul]; norm_num

/-- At one extended real: the logistic operation is the host's spelled-out quotient 1 / (1 + exp (-x)). -/
theorem logistic_eq_quotient (x : Ideal .f32) :
    FloatOps.logistic x
      = FloatOps.hostDivf (Ideal.ofBits .f32 0x3F800000#32)
          (FloatOps.addf (Ideal.ofBits .f32 0x3F800000#32) (FloatOps.hostUnary .exp (FloatOps.hostNegf x))) := by
  rw [ofBits_one_f32]; rfl

/-- Over a whole vector of any shape: a kernel's logistic of x is the host's quotient of the all-ones vector by the
    all-ones vector plus the exponential of the negated x, the all-ones vectors being any vectors one that hold the
    word 0x3F800000 at every index. -/
theorem vec_logistic_eq_quotient {s : Shape} (one one' x : FVec Ideal s .f32)
    (h1 : ∀ i, one i = Ideal.ofBits .f32 0x3F800000#32) (h1' : ∀ i, one' i = Ideal.ofBits .f32 0x3F800000#32) :
    logistic x = Host.divf one (addf one' (Host.exp (Host.negf x))) := by
  funext i
  simp only [logistic, Host.divf, addf, Host.exp, Host.negf, h1 i, h1' i]
  exact logistic_eq_quotient (x i)

/-- tanh is one function whether a kernel or a host program applies it. -/
theorem vec_tanh_eq_host {s : Shape} (x : FVec Ideal s .f32) : tanh x = Host.tanh x := rfl

/-- One gated recurrent cell, over vectors of any shape. With gate pre-activations a_r + b_r, a_z + b_z and
    a_n + r * b_n and the old state h, the new state (1 - z) * n + z * h computed with the kernel's operations (the
    logistic operation, tanh, the scalar 1 broadcast) is the new state computed with the host's (the quotient
    1 / (1 + exp (-x)) for each gate, the host's tanh, all-ones vectors), entry by entry, at every extended real. -/
theorem gru_cell_eq {s : Shape} (ar br az bz an bn h : FVec Ideal s .f32)
    (one_r one_r' one_z one_z' one_s : FVec Ideal s .f32)
    (hr : ∀ i, one_r i = Ideal.ofBits .f32 0x3F800000#32) (hr' : ∀ i, one_r' i = Ideal.ofBits .f32 0x3F800000#32)
    (hz : ∀ i, one_z i = Ideal.ofBits .f32 0x3F800000#32) (hz' : ∀ i, one_z' i = Ideal.ofBits .f32 0x3F800000#32)
    (hs : ∀ i, one_s i = Ideal.ofBits .f32 0x3F800000#32) :
    addf (mulf (subf (broadcast s (Scalar.ofBits .f32 0x3F800000#32)) (logistic (addf az bz)))
            (tanh (addf an (mulf (logistic (addf ar br)) bn))))
         (mulf (logistic (addf az bz)) h)
      = addf (mulf (subf one_s (Host.divf one_z (addf one_z' (Host.exp (Host.negf (addf az bz))))))
                (Host.tanh (addf an (mulf (Host.divf one_r (addf one_r' (Host.exp (Host.negf (addf ar br))))) bn))))
             (mulf (Host.divf one_z (addf one_z' (Host.exp (Host.negf (addf az bz))))) h) := by
  have hb : broadcast s (Scalar.ofBits (F := Ideal) .f32 0x3F800000#32) = one_s := funext fun i => (hs i).symm
  rw [← vec_logistic_eq_quotient one_r one_r' (addf ar br) hr hr', ← vec_logistic_eq_quotient one_z one_z' (addf az bz) hz hz',
    ← vec_tanh_eq_host, hb]

end Cert.Lib.Sigmoid

end
-- ==== Proof.RefSide.lean ====
/-
  The reference program of one step of a long short-term memory cell, read entry by entry, is the specification.

  The reference forms all four gate pre-activations at once: it contracts each stack of weight matrices (as the LEFT
  factor) with the input rows, respectively with the previous hidden rows, which gives arrays indexed
  (gate, unit, batch row); it transposes them to (gate, batch row, unit) and adds them. Entry (g, b, u) of the sum is

      (sum over k of W(g,u,k) * x(b,k)) + (sum over k of U(g,u,k) * h(b,k)),

  and since a product of two extended reals commutes, this is the specification's gate g b u. The four gates are the
  four slabs of that array. Three of them go through the quotient 1 / (1 + exp(-z)), written with the single-precision
  word of the number 1: over the extended reals that quotient is the logistic function. The fourth goes through tanh.
  The new cell state and the new hidden state are then formed exactly as the specification forms them.
-/
import proofs.«118477_j7473243095127_2_alg».proof.Proof.Gen.ReferenceIdeal.Read
import proofs.«118477_j7473243095127_2_alg».proof.Proof.Spec
import proofs.«118477_j7473243095127_2_alg».proof.Proof.LibSigmoid
import Idealize.ShloMosaic.Lib.ValueIdx
import Idealize.ShloMosaic.Lib.Pipeline.Value
import Idealize.ShloMosaic.PureOps.Ideal.Laws

noncomputable section

open scoped BigOperators

namespace Cert.LstmStep.Ref

open Idealize.ShloMosaic Idealize.ShloMosaic.ValueIdx Cert.ReferenceIdeal Cert.ReferenceIdeal.Read

/-! ## Index arithmetic: the reference's layout operations at coordinates -/

/-- Dropping a leading axis of extent one: entry (b, u) of the 4096 by 2048 array is entry (0, b, u) of the
    1 by 4096 by 2048 array, because (b * 2048 + u) / 2048 = b and (b * 2048 + u) mod 2048 = u for u below 2048. -/
theorem dropUnit_idx (b : Fin 4096) (u : Fin 2048) :
    idx_main_v1 (ix2 b u) = (ix3 (0 : Fin 1) b u : S1x4096x2048.Idx) := by
  funext a
  refine Fin.ext ?_
  have hb : b.val < 4096 := b.isLt
  have hu : u.val < 2048 := u.isLt
  match a with
  | ⟨0, _⟩ => rfl
  | ⟨1, _⟩ => show (b.val * 2048 + u.val) / 2048 % 4096 = b.val; omega
  | ⟨2, _⟩ => show (b.val * 2048 + u.val) % 2048 = u.val; omega

/-- Slab s of a stack, as a stack of one slab: entry (0, b, u) of the slab is entry (s, b, u) of the stack. Here the
    stack is the pair of previous states and s = 0. -/
theorem slab0_pair_idx (b : Fin 4096) (u : Fin 2048) :
    idx_main_v0 (ix3 (0 : Fin 1) b u) = (ix3 (0 : Fin 2) b u : S2x4096x2048.Idx) :=
  funext fun a => Fin.ext (by match a with | ⟨0, _⟩ => rfl | ⟨1, _⟩ => rfl | ⟨2, _⟩ => rfl)

/-- Slab 1 of the pair of previous states. -/
theorem slab1_pair_idx (b : Fin 4096) (u : Fin 2048) :
    idx_main_v2 (ix3 (0 : Fin 1) b u) = (ix3 (1 : Fin 2) b u : S2x4096x2048.Idx) :=
  funext fun a => Fin.ext (by match a with | ⟨0, _⟩ => rfl | ⟨1, _⟩ => rfl | ⟨2, _⟩ => rfl)

/-- Slab 0 of the four gate pre-activations. -/
theorem slab0_gates_idx (b : Fin 4096) (u : Fin 2048) :
    idx_main_v9 (ix3 (0 : Fin 1) b u) = (ix3 (0 : Fin 4) b u : S4x4096x2048.Idx) :=
  funext fun a => Fin.ext (by match a with | ⟨0, _⟩ => rfl | ⟨1, _⟩ => rfl | ⟨2, _⟩ => rfl)

/-- Slab 1 of the four gate pre-activations. -/
theorem slab1_gates_idx (b : Fin 4096) (u : Fin 2048) :
    idx_main_v17 (ix3 (0 : Fin 1) b u) = (ix3 (1 : Fin 4) b u : S4x4096x2048.Idx) :=
  funext fun a => Fin.ext (by match a with | ⟨0, _⟩ => rfl | ⟨1, _⟩ => rfl | ⟨2, _⟩ => rfl)

/-- Slab 2 of the four gate pre-activations. -/
theorem slab2_gates_idx (b : Fin 4096) (u : Fin 2048) :
    idx_main_v25 (ix3 (0 : Fin 1) b u) = (ix3 (2 : Fin 4) b u : S4x4096x2048.Idx) :=
  funext fun a => Fin.ext (by match a with | ⟨0, _⟩ => rfl | ⟨1, _⟩ => rfl | ⟨2, _⟩ => rfl)

/-- Slab 3 of the four gate pre-activations. -/
theorem slab3_gates_idx (b : Fin 4096) (u : Fin 2048) :
    idx_main_v33 (ix3 (0 : Fin 1) b u) = (ix3 (3 : Fin 4) b u : S4x4096x2048.Idx) :=
  funext fun a => Fin.ext (by match a with | ⟨0, _⟩ => rfl | ⟨1, _⟩ => rfl | ⟨2, _⟩ => rfl)

/-- Exchanging the last two axes: entry (g, b, u) of the transposed array is entry (g, u, b) of the original. -/
theorem swap_idx (g : Fin 4) (b : Fin 4096) (u : Fin 2048) :
    idx_main_v5 (ix3 g b u) = (ix3 g u b : S4x2048x4096.Idx) :=
  funext fun a => Fin.ext (by match a with | ⟨0, _⟩ => rfl | ⟨1, _⟩ => rfl | ⟨2, _⟩ => rfl)

/-- In entry (g, u, b) of the contraction, term k takes the weights at (g, u, k) … -/
theorem left_idx (g : Fin 4) (u : Fin 2048) (b : Fin 4096) (k : Fin 2048) :
    lidx_main_v4 (ix3 g u b) k = (ix3 g u k : S4x2048x2048.Idx) :=
  funext fun a => Fin.ext (by match a with | ⟨0, _⟩ => rfl | ⟨1, _⟩ => rfl | ⟨2, _⟩ => rfl)

/-- … and the rows at (b, k). -/
theorem right_idx (g : Fin 4) (u : Fin 2048) (b : Fin 4096) (k : Fin 2048) :
    ridx_main_v4 (ix3 g u b) k = (ix2 b k : S4096x2048.Idx) :=
  funext fun a => Fin.ext (by match a with | ⟨0, _⟩ => rfl | ⟨1, _⟩ => rfl)

/-! ## The previous states -/

variable (x0 : (⟨S2x4096x2048, .f32⟩ : BufTy).Contents (Elt Ideal))
  (x1 : (⟨S4096x2048, .f32⟩ : BufTy).Contents (Elt Ideal))
  (x2 x3 : (⟨S4x2048x2048, .f32⟩ : BufTy).Contents (Elt Ideal))

/-- The reference's previous hidden state at (b, u) is entry (0, b, u) of the stacked pair. -/
theorem prevHidden_at (b : Fin 4096) (u : Fin 2048) :
    val_main_v1 (F := Ideal) x0 (ix2 b u) = x0 (ix3 0 b u) := by
  rw [val_main_v1_apply, val_main_v0_apply, dropUnit_idx, slab0_pair_idx]

/-- The reference's previous cell state at (b, u) is entry (1, b, u) of the stacked pair. -/
theorem prevCell_at (b : Fin 4096) (u : Fin 2048) :
    val_main_v3 (F := Ideal) x0 (ix2 b u) = x0 (ix3 1 b u) := by
  rw [val_main_v3_apply, val_main_v2_apply]
  rw [show idx_main_v3 (ix2 b u) = (ix3 (0 : Fin 1) b u : S1x4096x2048.Idx) from dropUnit_idx b u, slab1_pair_idx]

/-- The reference's previous hidden state is slab 0 of the stacked pair. -/
theorem prevHidden_eq : val_main_v1 (F := Ideal) x0 = Cert.LstmStep.prevHidden x0 := by
  funext j
  obtain ⟨b, u, rfl⟩ : ∃ (b : Fin 4096) (u : Fin 2048), j = ix2 b u := ⟨j 0, j 1, eq_ix2 j⟩
  exact prevHidden_at x0 b u

/-- The reference's previous cell state is slab 1 of the stacked pair. -/
theorem prevCell_eq : val_main_v3 (F := Ideal) x0 = Cert.LstmStep.prevCell x0 := by
  funext j
  obtain ⟨b, u, rfl⟩ : ∃ (b : Fin 4096) (u : Fin 2048), j = ix2 b u := ⟨j 0, j 1, eq_ix2 j⟩
  exact prevCell_at x0 b u

/-! ## The gate pre-activations -/

/-- Entry (g, b, u) of the reference's summed contractions is the specification's pre-activation of gate g at batch
    row b and unit u: the reference multiplies weight by row entry, the specification row entry by weight, and a
    product of two extended reals commutes. -/
theorem gate_eq (g : Fin 4) (b : Fin 4096) (u : Fin 2048) :
    val_main_v8 (F := Ideal) x0 x1 x2 x3 (ix3 g b u)
      = Cert.LstmStep.gate x1 (Cert.LstmStep.prevHidden x0) x2 x3 g b u := by
  rw [val_main_v8_apply, val_main_v5_apply, val_main_v7_apply, swap_idx,
    show idx_main_v7 (ix3 g b u) = (ix3 g u b : S4x2048x4096.Idx) from swap_idx g b u,
    val_main_v4_apply, val_main_v6_apply, Ideal.addf_def]
  unfold Cert.LstmStep.gate
  refine congrArg₂ (· + ·) (Finset.sum_congr rfl fun k _ => ?_) (Finset.sum_congr rfl fun k _ => ?_)
  · rw [left_idx, right_idx, mul_comm]
  · rw [show lidx_main_v6 (ix3 g u b) k = (ix3 g u k : S4x2048x2048.Idx) from left_idx g u b k,
      show ridx_main_v6 (ix3 g u b) k = (ix2 b k : S4096x2048.Idx) from right_idx g u b k,
      prevHidden_at, mul_comm]
    rfl

/-! ## The three logistic gates and the candidate -/

/-- The reference's input gate at (b, u): the quotient 1 / (1 + exp(-z)) of slab 0's entry is its logistic. -/
theorem inputGate_at (b : Fin 4096) (u : Fin 2048) :
    val_main_v16 (F := Ideal) x0 x1 x2 x3 (ix2 b u)
      = Ideal.logistic (Cert.LstmStep.gate x1 (Cert.LstmStep.prevHidden x0) x2 x3 0 b u) := by
  rw [val_main_v16_apply, val_main_v15_apply, val_main_cst_0_apply, val_main_v14_apply, val_main_v13_apply,
    val_main_cst_apply, val_main_v12_apply, val_main_v11_apply, val_main_v10_apply, val_main_v9_apply,
    show idx_main_v10 (ix2 b u) = (ix3 (0 : Fin 1) b u : S1x4096x2048.Idx) from dropUnit_idx b u,
    slab0_gates_idx, gate_eq]
  exact (Cert.Lib.Sigmoid.logistic_eq_quotient _).symm

/-- The reference's forget gate at (b, u): the logistic of slab 1's entry. -/
theorem forgetGate_at (b : Fin 4096) (u : Fin 2048) :
    val_main_v24 (F := Ideal) x0 x1 x2 x3 (ix2 b u)
      = Ideal.logistic (Cert.LstmStep.gate x1 (Cert.LstmStep.prevHidden x0) x2 x3 1 b u) := by
  rw [val_main_v24_apply, val_main_v23_apply, val_main_cst_2_apply, val_main_v22_apply, val_main_v21_apply,
    val_main_cst_1_apply, val_main_v20_apply, val_main_v19_apply, val_main_v18_apply, val_main_v17_apply,
    show idx_main_v18 (ix2 b u) = (ix3 (0 : Fin 1) b u : S1x4096x2048.Idx) from dropUnit_idx b u,
    slab1_gates_idx, gate_eq]
  exact (Cert.Lib.Sigmoid.logistic_eq_quotient _).symm

/-- The reference's output gate at (b, u): the logistic of slab 2's entry. -/
theorem outputGate_at (b : Fin 4096) (u : Fin 2048) :
    val_main_v32 (F := Ideal) x0 x1 x2 x3 (ix2 b u)
      = Ideal.logistic (Cert.LstmStep.gate x1 (Cert.LstmStep.prevHidden x0) x2 x3 2 b u) := by
  rw [val_main_v32_apply, val_main_v31_apply, val_main_cst_4_apply, val_main_v30_apply, val_main_v29_apply,
    val_main_cst_3_apply, val_main_v28_apply, val_main_v27_apply, val_main_v26_apply, val_main_v25_apply,
    show idx_main_v26 (ix2 b u) = (ix3 (0 : Fin 1) b u : S1x4096x2048.Idx) from dropUnit_idx b u,
    slab2_gates_idx, gate_eq]
  exact (Cert.Lib.Sigmoid.logistic_eq_quotient _).symm

/-- The reference's candidate at (b, u): tanh of slab 3's entry. -/
theorem candidate_at (b : Fin 4096) (u : Fin 2048) :
    val_main_v35 (F := Ideal) x0 x1 x2 x3 (ix2 b u)
      = Ideal.tanh (Cert.LstmStep.gate x1 (Cert.LstmStep.prevHidden x0) x2 x3 3 b u) := by
  rw [val_main_v35_apply, val_main_v34_apply, val_main_v33_apply,
    show idx_main_v34 (ix2 b u) = (ix3 (0 : Fin 1) b u : S1x4096x2048.Idx) from dropUnit_idx b u,
    slab3_gates_idx, gate_eq]
  rfl

/-! ## The new cell state and the new hidden state -/

/-- The reference's new cell state at (b, u): forget gate times old cell state plus input gate times candidate. -/
theorem cell_at (b : Fin 4096) (u : Fin 2048) :
    val_main_v38 (F := Ideal) x0 x1 x2 x3 (ix2 b u)
      = Cert.LstmStep.cell x1 (Cert.LstmStep.prevHidden x0) (Cert.LstmStep.prevCell x0) x2 x3 b u := by
  rw [val_main_v38_apply, val_main_v36_apply, val_main_v37_apply, forgetGate_at, inputGate_at, candidate_at,
    prevCell_at]
  rfl

/-- The reference's new hidden state at (b, u): output gate times tanh of the new cell state. -/
theorem hidden_at (b : Fin 4096) (u : Fin 2048) :
    val_main_v40 (F := Ideal) x0 x1 x2 x3 (ix2 b u)
      = Cert.LstmStep.hidden x1 (Cert.LstmStep.prevHidden x0) (Cert.LstmStep.prevCell x0) x2 x3 b u := by
  rw [val_main_v40_apply, val_main_v39_apply, outputGate_at, cell_at]
  rfl

/-- The reference's new cell state is the specification's, as whole arrays. -/
theorem cell_eq :
    val_main_v38 (F := Ideal) x0 x1 x2 x3
      = Cert.LstmStep.cellArr x1 (Cert.LstmStep.prevHidden x0) (Cert.LstmStep.prevCell x0) x2 x3 := by
  funext j
  obtain ⟨b, u, rfl⟩ : ∃ (b : Fin 4096) (u : Fin 2048), j = ix2 b u := ⟨j 0, j 1, eq_ix2 j⟩
  exact cell_at x0 x1 x2 x3 b u

/-- The reference's new hidden state is the specification's, as whole arrays. -/
theorem hidden_eq :
    val_main_v40 (F := Ideal) x0 x1 x2 x3
      = Cert.LstmStep.hiddenArr x1 (Cert.LstmStep.prevHidden x0) (Cert.LstmStep.prevCell x0) x2 x3 := by
  funext j
  obtain ⟨b, u, rfl⟩ : ∃ (b : Fin 4096) (u : Fin 2048), j = ix2 b u := ⟨j 0, j 1, eq_ix2 j⟩
  exact hidden_at x0 x1 x2 x3 b u

end Cert.LstmStep.Ref

end
-- ==== Proof.lean ====
/-
  One step of a long short-term memory cell: a fused kernel against the plain formula, over the extended reals.

  THE TWO PROGRAMS. Both take the stacked previous state (hidden, cell), a batch of 4096 input rows of length 2048 and
  two stacks of four 2048-by-2048 weight matrices W, U (one per gate, one output unit per row), and return the new
  hidden state stacked on the new cell state. With
      gate g b u = (sum over i of x(b,i) W(g,u,i)) + (sum over i of h(b,i) U(g,u,i))
  and s the logistic function, cell = s(gate 1) * c + s(gate 0) * tanh(gate 3) and hidden = s(gate 2) * tanh(cell).
  The reference forms all four gates at once (the weights as the LEFT factor of each product, then a transpose),
  slices them, spells s(z) as 1 / (1 + exp(-z)), and combines. The kernel walks a grid (batch tile, unit tile, gate)
  with the gate innermost: at each point it forms one gate's 512-by-256 tile from the point's blocks and keeps it in
  slice `gate` of a four-slice scratch; at the fourth gate of a (batch tile, unit tile) pair it reads the four slices
  back, applies the logistic operation and tanh, and writes the pair's hidden and cell tiles.

  WHY THEY AGREE. Entry by entry both compute the same expression of the same array entries: the kernel's tile entry
  (r, l) of pair (bi, ni) is the array entry (512 bi + r, 256 ni + l); a change of float format is the identity on
  extended reals; a matrix product accumulated from zero is the plain sum over the contracted coordinate; a product of
  two extended reals commutes (x * W against W * x); and the logistic operation is by definition the quotient
  1 / (1 + exp(-z)), the word 0x3F800000 being 1. No law that fails at an infinity is used, so the precondition
  (finite inputs) is never opened.

  THE FRAMES. The kernel's region is run point by point under an invariant that says which slices of the scratch are
  known: before position n, slice k for k below n mod 4 holds the gate tile of position n - n mod 4 + k. The output
  windows are idle away from the fourth gate; there the body has all four slices and leaves the pair's tiles, which
  the pipeline writes back. The same argument, read at machine words, is the frame of the program as printed (nothing
  of its outputs' values is claimed). The reference's frame is its run with the result dropped. The idealization
  rewrote no operation, so there is nothing to preserve beyond the text itself.
-/
import proofs.«118477_j7473243095127_2_alg».proof.Defs
import proofs.«118477_j7473243095127_2_alg».proof.Proof.Gen.Kernel
import proofs.«118477_j7473243095127_2_alg».proof.Proof.Gen.KernelIdeal
import proofs.«118477_j7473243095127_2_alg».proof.Proof.Gen.ReferenceIdeal
import proofs.«118477_j7473243095127_2_alg».proof.Proof.Gen.ReferenceIdeal.Run
import proofs.«118477_j7473243095127_2_alg».proof.Proof.Gen.ReferenceIdeal.Read
import proofs.«118477_j7473243095127_2_alg».proof.Proof.Gen.Pre_finite_inputs
import proofs.«118477_j7473243095127_2_alg».proof.Proof.KernelBody
import proofs.«118477_j7473243095127_2_alg».proof.Proof.KernelValue
import proofs.«118477_j7473243095127_2_alg».proof.Proof.RefSide
import proofs.«118477_j7473243095127_2_alg».proof.Proof.HostSides
import Idealize.ShloMosaic.Adequacy
import Idealize.ShloMosaic.Init

noncomputable section

namespace Cert.Proof

open Idealize.ShloMosaic Idealize.ShloMosaic.TcCoe Idealize.SL.Sem

/-- The program as printed runs and leaves its arguments unchanged: the region's frame at machine words. -/
theorem frame_kernel : Cert.frame_Kernel := fun m ρ _ => Cert.Kernel.Step.frame (F := Bits) m ρ

/-- The idealized kernel likewise: the same frame at the exact instance. -/
theorem frame_kernelIdeal : Cert.frame_KernelIdeal := fun m ρ _ => Cert.KernelIdeal.Step.frame (F := Ideal) m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the new hidden state stacked on the new cell
    state of the specification: the kernel by its region's tiles, the reference operation by operation. -/
theorem algebraic : Cert.algebraic_KernelIdeal_ReferenceIdeal := by
  intro m ρ m' ρ' _ hagree
  refine ⟨Cert.LstmStep.Final.result m, Cert.LstmStep.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.LstmStep.Host.ref_result, Cert.LstmStep.Ref.hidden_eq,
    Cert.LstmStep.Ref.cell_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
